-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x10 .f32) (main_arg5 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x10 .f32 := Host.absf main_arg4
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S4000x512 : Shape := ⟨2, ![4000, 512]⟩
abbrev S4000x64 : Shape := ⟨2, ![4000, 64]⟩
abbrev S100000x1 : Shape := ⟨2, ![100000, 1]⟩
abbrev S3200000x64 : Shape := ⟨2, ![3200000, 64]⟩
abbrev S1x64 : Shape := ⟨2, ![1, 64]⟩
abbrev S100000x10 : Shape := ⟨2, ![100000, 10]⟩
abbrev S4000x10 : Shape := ⟨2, ![4000, 10]⟩
abbrev S3200000x10 : Shape := ⟨2, ![3200000, 10]⟩
abbrev S1x10 : Shape := ⟨2, ![1, 10]⟩

abbrev nBuf : Space → Nat
  | .hbm => 81
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x64, .f32⟩
  | .hbm, ⟨40, _⟩ => ⟨S_, .f32⟩
  | .hbm, ⟨41, _⟩ => ⟨S100000x64, .f32⟩
  | .hbm, ⟨42, _⟩ => ⟨S3200000x1, .i32⟩
  | .hbm, ⟨43, _⟩ => ⟨S100000x64, .f32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x10, .f32⟩
  | .hbm, ⟨54, _⟩ => ⟨S100000x1, .f32⟩
  | .hbm, ⟨55, _⟩ => ⟨S100000x10, .f32⟩
  | .hbm, ⟨56, _⟩ => ⟨S100000x10, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S3200000x10, .f32⟩
  | .hbm, ⟨66, _⟩ => ⟨S_, .f32⟩
  | .hbm, ⟨67, _⟩ => ⟨S100000x10, .f32⟩
  | .hbm, ⟨68, _⟩ => ⟨S3200000x1, .i32⟩
  | .hbm, ⟨69, _⟩ => ⟨S100000x10, .f32⟩
  | .hbm, ⟨70, _⟩ => ⟨S100000, .f32⟩
  | .hbm, ⟨71, _⟩ => ⟨S100000x1, .f32⟩
  | .hbm, ⟨72, _⟩ => ⟨S100000x10, .f32⟩
  | .hbm, ⟨73, _⟩ => ⟨S100000x10, .f32⟩
  | .hbm, ⟨74, _⟩ => ⟨S100000x1, .f32⟩
  | .hbm, ⟨75, _⟩ => ⟨S100000x10, .f32⟩
  | .hbm, ⟨76, _⟩ => ⟨S100000x10, .f32⟩
  | .hbm, ⟨77, _⟩ => ⟨S100000x10, .f32⟩
  | .hbm, ⟨78, _⟩ => ⟨S1x10, .f32⟩
  | .hbm, ⟨79, _⟩ => ⟨S100000x10, .f32⟩
  | .hbm, ⟨80, _⟩ => ⟨S100000x10, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S64x10, .f32⟩
  | .local _ .vmem, ⟨9, _⟩ => ⟨S4000x10, .f32⟩
  | .local _ .vmem, ⟨10, _⟩ => ⟨S4000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x10_S64x10_0_0 : ∀ a, (![0, 0] : Fin 2 → Nat) a + S64x10.size a ≤ S64x10.size a
  h_S64x10 : 0 < S64x10.numel
  inb_S4000x10_S4000x10_0_0 : ∀ a, (![0, 0] : Fin 2 → Nat) a + S4000x10.size a ≤ S4000x10.size a
  h_S4000x10 : 0 < S4000x10.numel
  bcast_S100000x1_S100000x10_0_1 : S100000x1.BroadcastsInDim S100000x10 (![0, 1] : Fin 2 → Fin S100000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S3200000x1_S3200000_n_0_0_1_wf : ScatterDims.WF S100000 S3200000x1 S3200000 [] [0] [0] 1
  dot_S4000x512_S512x64_S4000x64_1_0_0_1_n_n_wf : DotDims.WF S4000x512 S512x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x10_S4000x10_1_0_0_1_n_n_wf : DotDims.WF S4000x64 S64x10 S4000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x10.size a ≤ S64x10.size a
  hwx1_2 : ∀ i : grid1.Coords, EltTy.bits .f32 = 32 ∨ (Rect.block (s := S64x10) S64x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x10.size a ≤ S100000x10.size a
  hwx1_3 : ∀ i : grid1.Coords, EltTy.bits .f32 = 32 ∨ (Rect.block (s := S100000x10) S4000x10.size (cc1_transform_3 i) (hinb1_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x10_S4000x10_1_0_0_1_n_n : DotDims S4000x64 S64x10 S4000x10 where
  lhsContracting := [1]
  rhsContracting := [0]
  lhsNonContracting := [0]
  rhsNonContracting := [1]
  lhsBatch := []
  rhsBatch := []
  wf := dot_S4000x64_S64x10_S4000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S4000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S100000x64 : Shape := ⟨2, ![100000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x10 : Shape := ⟨2, ![100000, 10]⟩
abbrev S3300000x10 : Shape := ⟨2, ![3300000, 10]⟩
abbrev S1x10 : Shape := ⟨2, ![1, 10]⟩

abbrev nBuf : Space → Nat
  | .hbm => 125
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x64, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x10, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x10, .f32⟩
  | .hbm, ⟨115, _⟩ => ⟨S3300000x1, .f32⟩
  | .hbm, ⟨116, _⟩ => ⟨S3300000x10, .f32⟩
  | .hbm, ⟨117, _⟩ => ⟨S3300000x10, .f32⟩
  | .hbm, ⟨118, _⟩ => ⟨S_, .f32⟩
  | .hbm, ⟨119, _⟩ => ⟨S100000x10, .f32⟩
  | .hbm, ⟨120, _⟩ => ⟨S3300000x1, .i32⟩
  | .hbm, ⟨121, _⟩ => ⟨S100000x10, .f32⟩
  | .hbm, ⟨122, _⟩ => ⟨S1x10, .f32⟩
  | .hbm, ⟨123, _⟩ => ⟨S100000x10, .f32⟩
  | .hbm, ⟨124, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x10_S100000x10_1_0_0_1_n_n_wf : DotDims.WF S100000x64 S64x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.KernelRun.lean ====
/-
  The idealized kernel's run with its result named.

  The program is six segments: two stretches of host operations, the first matrix-product region, a stretch of host
  operations (the first aggregation), the second region (bias, rectifier, matrix product), and a last stretch (the second
  aggregation and the output bias). Every weakly fair execution runs them in order, and the buffer contents at each
  boundary are a fold through the segments from the launch memory. Here the run is stated with the result buffer read at
  the last boundary's contents, beside the unchanged arguments.
-/
import proofs.«146032_j7576322311022_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- From any memory with zero counters every weakly fair execution of the program terminates, nothing faulting, with the
    result buffer at the last boundary's contents and the argument arrays as launched: the launch over the six segments,
    the last thread state read against the final state. -/
theorem run_result : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LibDenseStages.lean ====
/-
  The two dense stages of the two-layer graph convolution, as whole-array functions on the extended reals.

  The first stage is the plain matrix product of the node features with the first weight matrix: entry (p, f) is the
  sum over d of a (p, d) * w (d, f). The second stage adds the first layer's bias row to the aggregated hidden
  features, clamps below at zero, and multiplies by the second weight matrix: entry (p, f) is the sum over d of
  max (h (p, d) + b (0, d)) 0 * w (d, f). Both are stated for any extents.
-/
import Idealize.ShloMosaic.PureOps.Ideal
import Idealize.ShloMosaic.Lib.ValueIdx

noncomputable section

namespace Cert.DenseStages

open Idealize.ShloMosaic Idealize.ShloMosaic.ValueIdx
open scoped BigOperators

/-- The matrix product of an [M, K] array with a [K, N] array: entry (p, f) is the sum over d of a (p, d) * w (d, f). -/
def matProd {M K N : ℕ} (a : (⟨2, ![M, K]⟩ : Shape).Idx → EReal) (w : (⟨2, ![K, N]⟩ : Shape).Idx → EReal) :
    (⟨2, ![M, N]⟩ : Shape).Idx → EReal :=
  fun j => ∑ d : Fin K, a (ix2 (j 0) d) * w (ix2 d (j 1))

theorem matProd_apply {M K N : ℕ} (a : (⟨2, ![M, K]⟩ : Shape).Idx → EReal) (w : (⟨2, ![K, N]⟩ : Shape).Idx → EReal)
    (p : Fin M) (f : Fin N) : matProd a w (ix2 p f) = ∑ d : Fin K, a (ix2 p d) * w (ix2 d f) := rfl

/-- The rectified, biased rows of an [M, K] array: entry (p, d) is max (h (p, d) + b (0, d)) 0, b a [1, K] row. -/
def reluBias {M K : ℕ} (h : (⟨2, ![M, K]⟩ : Shape).Idx → EReal) (b : (⟨2, ![1, K]⟩ : Shape).Idx → EReal) :
    (⟨2, ![M, K]⟩ : Shape).Idx → EReal :=
  fun j => max (h j + b (ix2 (0 : Fin 1) (j 1))) 0

theorem reluBias_apply {M K : ℕ} (h : (⟨2, ![M, K]⟩ : Shape).Idx → EReal) (b : (⟨2, ![1, K]⟩ : Shape).Idx → EReal)
    (p : Fin M) (d : Fin K) : reluBias h b (ix2 p d) = max (h (ix2 p d) + b (ix2 (0 : Fin 1) d)) 0 := rfl

end Cert.DenseStages

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.RegionValues.lean ====
/-
  What the two pipelined regions leave in their output arrays, as whole-array functions of the arrays they find.

  The first region multiplies the [100000, 512] node features by the [512, 64] weight matrix, 4000 rows at a grid
  point: the block written at point t holds rows 4000 t … 4000 t + 3999 of the product, each entry the inner product
  of a row of the features' block with a column of the (whole) weight matrix. The 25 blocks tile the output, so the
  output array ends holding the matrix product. The second region does the same with the rectified, biased rows of
  the [100000, 64] hidden features and the [64, 10] weight matrix. Both are stated at the ideal values, for any
  contents the arrays hold when the region is entered.
-/
import proofs.«146032_j7576322311022_2_alg».proof.Proof.Gen.KernelIdeal.Frame
import proofs.«146032_j7576322311022_2_alg».proof.Proof.LibDenseStages
import proofs.«146032_j7576322311022_2_alg».proof.Proof.LibInnerProducts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValues

open Cert.KernelIdeal Cert.KernelIdeal.Gen Idealize.ShloMosaic Idealize.ShloMosaic.TcCoe Idealize.SL.Sem
open Idealize.ShloMosaic.ValueIdx Cert.DenseStages
open Idealize.ShloMosaic.Pipeline (Dat)
open scoped BigOperators

variable (V : (c : Dev nD) → (b : Ref sig .tc) → Buf (Elt Ideal) ((c : Thread nD τ).loc b))

/-- The offsets of a whole-buffer access, as the constant zero function. -/
theorem zero_offsets : (![0, 0] : Fin 2 → Nat) = fun _ => 0 := funext fun a => by fin_cases a <;> rfl

/-! ## The first region: the features times the first weight matrix -/

/-- The first region's dimension numbers are the plain ones: contract the left factor's columns with the right
    factor's rows. -/
theorem dims0_plain : dot_S4000x512_S512x64_S4000x64_1_0_0_1_n_n = DotDims.plain 4000 512 64 := rfl

/-- An entry of the block the first region's body computes is the inner product of a row of its first operand with a
    column of its second: narrowing the format is the identity on the extended reals, and the accumulator is zero. -/
theorem product_block_apply (x0 : Vec Ideal S4000x512 .f32) (x1 : Vec Ideal S512x64 .f32) (p : Fin 4000) (f : Fin 64) :
    k0_pay1 (F := Ideal) x0 x1 (ix2 p f) = ∑ d : Fin 512, x0 (ix2 p d) * x1 (ix2 d f) := by
  unfold k0_pay1
  exact InnerProducts.matmul_zero_apply _ dims0_plain none _ _ p f

/-- The printed index maps, decided over the 25 grid points: the features' block and the output's block at point
    `t` are both the `t`-th block of 4000 rows, at column block zero; the weight matrix is one block. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is rows `4000 t … 4000 t + 3999` of the features. -/
theorem features_block_apply (c : Dev nD) (t : Fin cfg0.N) (p : Fin 4000) (d : Fin 512) (i : S100000x512.Idx)
    (h0 : (i 0).val = win0_0.index t (0 : Fin 2) * 4000 + p.val) (h1 : (i 1).val = win0_0.index t (1 : Fin 2) * 512 + d.val) :
    (iblk0 V c 0 t : Vec Ideal S4000x512 .f32) (ix2 p d) = (V c main_arg0 : S100000x512.Idx → EReal) i := by
  unfold iblk0
  rw [View.read_apply]
  show V c main_arg0 _ = V c main_arg0 _
  congr 1
  funext a
  apply Fin.ext
  match a with
  | ⟨0, _⟩ => show win0_0.index t (0 : Fin 2) * 4000 + 1 * p.val = (i 0).val; omega
  | ⟨1, _⟩ => show win0_0.index t (1 : Fin 2) * 512 + 1 * d.val = (i 1).val; omega

/-- The weight matrix's block at any point is the weight matrix. -/
theorem weights0_block_apply (c : Dev nD) (t : Fin cfg0.N) (d : Fin 512) (f : Fin 64) (i : S512x64.Idx)
    (h0 : (i 0).val = win0_1.index t (0 : Fin 2) * 512 + d.val) (h1 : (i 1).val = win0_1.index t (1 : Fin 2) * 64 + f.val) :
    (iblk0 V c 1 t : Vec Ideal S512x64 .f32) (ix2 d f) = (V c main_arg2 : S512x64.Idx → EReal) i := by
  unfold iblk0
  rw [View.read_apply]
  show V c main_arg2 _ = V c main_arg2 _
  congr 1
  funext a
  apply Fin.ext
  match a with
  | ⟨0, _⟩ => show win0_1.index t (0 : Fin 2) * 512 + 1 * d.val = (i 0).val; omega
  | ⟨1, _⟩ => show win0_1.index t (1 : Fin 2) * 64 + 1 * f.val = (i 1).val; omega

/-- What point `t` writes back is block `t` of the matrix product of the arrays as the region finds them. -/
theorem flushed0_eq (c : Dev nD) (t : Fin cfg0.N) :
    (dat0 (F := Ideal) V c).flushed 2 t
      = ((cfg0.win 2).blk t).view.read (Elt Ideal)
          (matProd (M := 100000) (K := 512) (N := 64) (V c main_arg0 : S100000x512.Idx → EReal) (V c main_arg2 : S512x64.Idx → EReal)) := by
  show (cfg0.win 2).cut (grid0.coords t) ((dat0 V c).after 2 t) = _
  rw [after0_2]
  unfold out0_2
  rw [View.canon_unit_zero zero_offsets]
  simp only [View.ld_unit_zero (S := S4000x512) zero_offsets, View.ld_unit_zero (S := S512x64) zero_offsets]
  obtain ⟨e00, e01, e10, e11, e20, e21⟩ := index_facts0 t
  funext j
  obtain ⟨p, f, rfl⟩ : ∃ (p : Fin 4000) (f : Fin 64), j = ix2 p f := ⟨j 0, j 1, eq_ix2 j⟩
  show k0_pay1 (F := Ideal) (iblk0 V c 0 t) (iblk0 V c 1 t) (ix2 p f)
    = matProd (M := 100000) (K := 512) (N := 64) (V c main_arg0 : S100000x512.Idx → EReal) (V c main_arg2 : S512x64.Idx → EReal)
        (((cfg0.win 2).blk t).view.emb (ix2 p f))
  refine (product_block_apply (iblk0 V c 0 t) (iblk0 V c 1 t) p f).trans ?_
  refine Finset.sum_congr rfl fun d _ => ?_
  refine congrArg₂ (· * ·) (features_block_apply V c t p d _ ?_ ?_) (weights0_block_apply V c t d f _ ?_ ?_)
  · show win0_2.index t (0 : Fin 2) * 4000 + 1 * p.val = win0_0.index t (0 : Fin 2) * 4000 + p.val; omega
  · show d.val = win0_0.index t (1 : Fin 2) * 512 + d.val; omega
  · show d.val = win0_1.index t (0 : Fin 2) * 512 + d.val; omega
  · show win0_2.index t (1 : Fin 2) * 64 + 1 * f.val = win0_1.index t (1 : Fin 2) * 64 + f.val; omega

/-- An index of the output is in point `t`'s block iff each coordinate is in the block's range on its axis. -/
theorem mem_block0 (t : Fin cfg0.N) (i : S100000x64.Idx) :
    i ∈ ((cfg0.win 2).blk t).view.set ↔ ∀ a : Fin 2, win0_2.index t a * S4000x64.size a ≤ (i a).val
      ∧ (i a).val < win0_2.index t a * S4000x64.size a + S4000x64.size a := by
  show i ∈ ((View.whole main_v14).slice (win0_2.rect t)).set ↔ _
  rw [View.set_slice_whole, Rect.mem_set_unit]
  exact Iff.rfl

/-- The blocks tile the output: row `r` is in the block of point `r / 4000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 25 := N_0
  obtain ⟨t, ht⟩ : ∃ t : Fin cfg0.N, t.val = (i 0).val / 4000 := ⟨⟨(i 0).val / 4000, by show _ < grid0.N; omega⟩, rfl⟩
  obtain ⟨-, -, -, -, e20, e21⟩ := index_facts0 t
  refine ⟨t, flush0_2 t, ?_⟩
  rw [mem_block0]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 64 ≤ (i 1).val ∧ (i 1).val < win0_2.index t (1 : Fin 2) * 64 + 64
    omega

/-- THE FIRST REGION'S OUTPUT: the matrix product of the features with the first weight matrix, as the region finds
    them. -/
theorem region0_value (c : Dev nD) :
    (dat0 (F := Ideal) V c).arrAt 2 cfg0.N
      = matProd (M := 100000) (K := 512) (N := 64) (V c main_arg0 : S100000x512.Idx → EReal) (V c main_arg2 : S512x64.Idx → EReal) :=
  (dat0 (F := Ideal) V c).arrAt_eq_of_cover 2 _ (fun t _ => flushed0_eq V c t) cover0

/-! ## The second region: the rectified, biased hidden features times the second weight matrix -/

/-- The second region's dimension numbers are the plain ones too. -/
theorem dims1_plain : dot_S4000x64_S64x10_S4000x10_1_0_0_1_n_n = DotDims.plain 4000 64 10 := rfl

/-- An entry of the block the second region's body computes: the bias row is added to every row of the first operand,
    the sum is clamped below at zero (the zero word is the real zero), and the result is multiplied by the third
    operand; the shape casts are between equal shapes and narrowing the format is the identity. -/
theorem rectified_block_apply (x0 : Vec Ideal S4000x64 .f32) (x1 : Vec Ideal S1x64 .f32) (x2 : Vec Ideal S64x10 .f32)
    (p : Fin 4000) (f : Fin 10) :
    k1_pay1 (F := Ideal) x0 x1 x2 (ix2 p f)
      = ∑ d : Fin 64, max (x0 (ix2 p d) + x1 (ix2 (0 : Fin 1) d)) 0 * x2 (ix2 d f) := by
  unfold k1_pay1
  refine (InnerProducts.matmul_zero_apply _ dims1_plain none _ _ p f).trans ?_
  refine Finset.sum_congr rfl fun d _ => ?_
  rw [truncf_apply, truncf_apply, maximumf_apply, addf_apply, broadcast_apply, shapeCast_self, shapeCast_self,
    broadcastTo_1b_ab_apply, show Scalar.ofBits (F := Ideal) .f32 0x00000000#32 = 0 from Ideal.ofBits_zero_f32]

/-- The printed index maps, decided over the 25 grid points: the hidden features' block and the output's block at
    point `t` are both the `t`-th block of 4000 rows, at column block zero; the bias row and the weight matrix are one
    block each. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The hidden features' block at point `t` is rows `4000 t … 4000 t + 3999` of the hidden features. -/
theorem hidden_block_apply (c : Dev nD) (t : Fin cfg1.N) (p : Fin 4000) (d : Fin 64) (i : S100000x64.Idx)
    (h0 : (i 0).val = win1_0.index t (0 : Fin 2) * 4000 + p.val) (h1 : (i 1).val = win1_0.index t (1 : Fin 2) * 64 + d.val) :
    (iblk1 V c 0 t : Vec Ideal S4000x64 .f32) (ix2 p d) = (V c main_v35 : S100000x64.Idx → EReal) i := by
  unfold iblk1
  rw [View.read_apply]
  show V c main_v35 _ = V c main_v35 _
  congr 1
  funext a
  apply Fin.ext
  match a with
  | ⟨0, _⟩ => show win1_0.index t (0 : Fin 2) * 4000 + 1 * p.val = (i 0).val; omega
  | ⟨1, _⟩ => show win1_0.index t (1 : Fin 2) * 64 + 1 * d.val = (i 1).val; omega

/-- The bias row's block at any point is the bias row. -/
theorem bias_block_apply (c : Dev nD) (t : Fin cfg1.N) (z : Fin 1) (d : Fin 64) (i : S1x64.Idx)
    (h0 : (i 0).val = win1_1.index t (0 : Fin 2) * 1 + z.val) (h1 : (i 1).val = win1_1.index t (1 : Fin 2) * 64 + d.val) :
    (iblk1 V c 1 t : Vec Ideal S1x64 .f32) (ix2 z d) = (V c main_v36 : S1x64.Idx → EReal) i := by
  unfold iblk1
  rw [View.read_apply]
  show V c main_v36 _ = V c main_v36 _
  congr 1
  funext a
  apply Fin.ext
  match a with
  | ⟨0, _⟩ => show win1_1.index t (0 : Fin 2) * 1 + 1 * z.val = (i 0).val; omega
  | ⟨1, _⟩ => show win1_1.index t (1 : Fin 2) * 64 + 1 * d.val = (i 1).val; omega

/-- The second weight matrix's block at any point is the weight matrix. -/
theorem weights1_block_apply (c : Dev nD) (t : Fin cfg1.N) (d : Fin 64) (f : Fin 10) (i : S64x10.Idx)
    (h0 : (i 0).val = win1_2.index t (0 : Fin 2) * 64 + d.val) (h1 : (i 1).val = win1_2.index t (1 : Fin 2) * 10 + f.val) :
    (iblk1 V c 2 t : Vec Ideal S64x10 .f32) (ix2 d f) = (V c main_arg4 : S64x10.Idx → EReal) i := by
  unfold iblk1
  rw [View.read_apply]
  show V c main_arg4 _ = V c main_arg4 _
  congr 1
  funext a
  apply Fin.ext
  match a with
  | ⟨0, _⟩ => show win1_2.index t (0 : Fin 2) * 64 + 1 * d.val = (i 0).val; omega
  | ⟨1, _⟩ => show win1_2.index t (1 : Fin 2) * 10 + 1 * f.val = (i 1).val; omega

/-- What point `t` writes back is block `t` of the product of the rectified, biased hidden features with the second
    weight matrix, the arrays as the region finds them. -/
theorem flushed1_eq (c : Dev nD) (t : Fin cfg1.N) :
    (dat1 (F := Ideal) V c).flushed 3 t
      = ((cfg1.win 3).blk t).view.read (Elt Ideal)
          (matProd (M := 100000) (K := 64) (N := 10)
            (reluBias (M := 100000) (K := 64) (V c main_v35 : S100000x64.Idx → EReal) (V c main_v36 : S1x64.Idx → EReal))
            (V c main_arg4 : S64x10.Idx → EReal)) := by
  show (cfg1.win 3).cut (grid1.coords t) ((dat1 V c).after 3 t) = _
  rw [after1_3]
  unfold out1_3
  rw [View.canon_unit_zero zero_offsets]
  simp only [View.ld_unit_zero (S := S4000x64) zero_offsets, View.ld_unit_zero (S := S1x64) zero_offsets,
    View.ld_unit_zero (S := S64x10) zero_offsets]
  obtain ⟨e00, e01, e10, e11, e20, e21, e30, e31⟩ := index_facts1 t
  funext j
  obtain ⟨p, f, rfl⟩ : ∃ (p : Fin 4000) (f : Fin 10), j = ix2 p f := ⟨j 0, j 1, eq_ix2 j⟩
  show k1_pay1 (F := Ideal) (iblk1 V c 0 t) (iblk1 V c 1 t) (iblk1 V c 2 t) (ix2 p f)
    = matProd (M := 100000) (K := 64) (N := 10)
        (reluBias (M := 100000) (K := 64) (V c main_v35 : S100000x64.Idx → EReal) (V c main_v36 : S1x64.Idx → EReal))
        (V c main_arg4 : S64x10.Idx → EReal) (((cfg1.win 3).blk t).view.emb (ix2 p f))
  refine (rectified_block_apply (iblk1 V c 0 t) (iblk1 V c 1 t) (iblk1 V c 2 t) p f).trans ?_
  refine Finset.sum_congr rfl fun d _ => ?_
  refine congrArg₂ (· * ·)
    (congrArg₂ (fun a b : EReal => max (a + b) 0) (hidden_block_apply V c t p d _ ?_ ?_) (bias_block_apply V c t 0 d _ ?_ ?_))
    (weights1_block_apply V c t d f _ ?_ ?_)
  · show win1_3.index t (0 : Fin 2) * 4000 + 1 * p.val = win1_0.index t (0 : Fin 2) * 4000 + p.val; omega
  · show d.val = win1_0.index t (1 : Fin 2) * 64 + d.val; omega
  · show 0 = win1_1.index t (0 : Fin 2) * 1 + 0; omega
  · show d.val = win1_1.index t (1 : Fin 2) * 64 + d.val; omega
  · show d.val = win1_2.index t (0 : Fin 2) * 64 + d.val; omega
  · show win1_3.index t (1 : Fin 2) * 10 + 1 * f.val = win1_2.index t (1 : Fin 2) * 10 + f.val; omega

/-- An index of the output is in point `t`'s block iff each coordinate is in the block's range on its axis. -/
theorem mem_block1 (t : Fin cfg1.N) (i : S100000x10.Idx) :
    i ∈ ((cfg1.win 3).blk t).view.set ↔ ∀ a : Fin 2, win1_3.index t a * S4000x10.size a ≤ (i a).val
      ∧ (i a).val < win1_3.index t a * S4000x10.size a + S4000x10.size a := by
  show i ∈ ((View.whole main_v37).slice (win1_3.rect t)).set ↔ _
  rw [View.set_slice_whole, Rect.mem_set_unit]
  exact Iff.rfl

/-- The blocks tile the output: row `r` is in the block of point `r / 4000`. -/
theorem cover1 (i : S100000x10.Idx) :
    ∃ t : Fin cfg1.N, (cfg1.win 3).flush t = true ∧ i ∈ ((cfg1.win 3).blk t).view.set := by
  have hi0 : (i 0).val < 100000 := (i 0).isLt
  have hi1 : (i 1).val < 10 := (i 1).isLt
  have hN : grid1.N = 25 := N_1
  obtain ⟨t, ht⟩ : ∃ t : Fin cfg1.N, t.val = (i 0).val / 4000 := ⟨⟨(i 0).val / 4000, by show _ < grid1.N; omega⟩, rfl⟩
  obtain ⟨-, -, -, -, -, -, e30, e31⟩ := index_facts1 t
  refine ⟨t, flush1_3 t, ?_⟩
  rw [mem_block1]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 10 ≤ (i 1).val ∧ (i 1).val < win1_3.index t (1 : Fin 2) * 10 + 10
    omega

/-- THE SECOND REGION'S OUTPUT: the product of the rectified, biased hidden features with the second weight matrix, as
    the region finds them. -/
theorem region1_value (c : Dev nD) :
    (dat1 (F := Ideal) V c).arrAt 3 cfg1.N
      = matProd (M := 100000) (K := 64) (N := 10)
          (reluBias (M := 100000) (K := 64) (V c main_v35 : S100000x64.Idx → EReal) (V c main_v36 : S1x64.Idx → EReal))
          (V c main_arg4 : S64x10.Idx → EReal) :=
  (dat1 (F := Ideal) V c).arrAt_eq_of_cover 3 _ (fun t _ => flushed1_eq V c t) cover1

end Cert.KernelIdeal.RegionValues

end
-- ==== Proof.LibSegmentDims.lean ====
/-
  The dimension numbers of the two indexed host operations a segment sum is lowered to, for any extents.

  A row gather takes an [N, C] array and an [E, 1] array of row indices and returns the [E, C] array of the rows named;
  an accumulating row scatter adds the rows of an [E, C] array into an [N, C] array at the rows named. The same two
  operations on a vector of length N (one entry per index instead of a row) read and add single entries. Each record
  here is the literal list of axes the host operation carries, with the side conditions on the shapes a parameter.
-/
import Idealize.ShloMosaic.PureOps.Dims

namespace Cert.SegmentDims

open Idealize.ShloMosaic

/-- Rows of an [N, C] array gathered at [E, 1] indices into [E, C]: axis 0 is indexed and collapsed, axis 1 is the row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of a vector [N] gathered at [E, 1] indices into [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows of an [E, C] array added into an [N, C] array at [E, 1] row indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Entries of a vector [E] added into a vector [N] at [E, 1] indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

end Cert.SegmentDims
-- ==== Proof.LibGraphDefs.lean ====
/-
  The host-side stages of a symmetric-normalised graph convolution, as whole-array functions, for any extents.

  With N nodes, E directed edges (source and destination vectors of 32-bit words) and C features:
  the degree of node i is the number of edges whose destination is i, plus one for the node's own loop;
  the normalising factor of a node is the reciprocal square root of its degree where that is positive and zero elsewhere;
  an edge's source is read with a negative word wrapped by the node count and then clamped to a valid row.
  The aggregation is written in two arrangements. In the first, every row is scaled by its node's factor, the scaled rows
  are summed over the edges arriving at a node, and the sum is scaled once more by the destination's factor, the node's
  own row entering with the square of its factor. In the second, the loops are edges like any other (the edge list is
  the given edges followed by one loop per node), and each edge's row is scaled by the product of the factors of its two
  ends before the sum. The definitions below spell the two arrangements with the host operations that compute them.
-/
import Idealize.ShloMosaic.PureOps.Ideal
import Idealize.ShloMosaic.Lib.ValueIdx
import proofs.«146032_j7576322311022_2_alg».proof.Proof.LibSegmentDims

noncomputable section

namespace Cert.GraphStages

open Idealize.ShloMosaic Idealize.ShloMosaic.ValueIdx Cert.SegmentDims

/-- The rank-0 shape, a vector of n entries, an a-by-b matrix. -/
abbrev S0 : Shape := ⟨0, ![]⟩
abbrev Vc (n : ℕ) : Shape := ⟨1, ![n]⟩
abbrev Mx (a b : ℕ) : Shape := ⟨2, ![a, b]⟩

variable {N E C : ℕ}

/-- One index word with a negative value wrapped by the node count n: b + n when b is negative, b otherwise. -/
def wrap1 (n b : BitVec 32) : BitVec 32 :=
  Scalar.select (IntOp.cmpi .slt b 0#32) (IntOp.addi b n) b

/-- The row a wrapped index word names: its signed value clamped into [0, N − 1]. -/
def nodeIdx (N : ℕ) (hN : 0 < N) (b : BitVec 32) : Fin N := ⟨min b.toInt.toNat (N - 1), by omega⟩

/-- An index vector with its negative entries wrapped by the node count. -/
def wrapNeg (n : BitVec 32) (hzE : S0.BroadcastsInDim (Vc E) ![]) (x : IVec (Vc E) 32) : IVec (Vc E) 32 :=
  select (cmpi .slt x (broadcastInDim (Vc E) ![] hzE (constantI S0 32 0#32)))
    (addi x (broadcastInDim (Vc E) ![] hzE (constantI S0 32 n))) x

/-- The normalising factor of one degree value: its reciprocal square root where positive, zero elsewhere. -/
def dinv1 (x : EReal) : EReal :=
  Scalar.select (FloatOps.cmpf (F := Ideal) (φ := .f32) .ogt x (Ideal.ofBits .f32 0x00000000#32))
    (FloatOps.hostUnary (F := Ideal) (φ := .f32) .rsqrt x) (Ideal.ofBits .f32 0x00000000#32)

/-- The normalising factors of a degree vector, entry by entry. -/
def dinvOf (hzN : S0.BroadcastsInDim (Vc N) ![]) (deg : FVec Ideal (Vc N) .f32) : FVec Ideal (Vc N) .f32 :=
  select (cmpf (F := Ideal) .ogt deg (broadcastInDim (Vc N) ![] hzN (constant (F := Ideal) S0 .f32 0x00000000#32)))
    (Host.rsqrt (F := Ideal) deg)
    (broadcastInDim (Vc N) ![] hzN (id (constant (F := Ideal) S0 .f32 0x00000000#32)))

/-- Degrees, loops added afterwards: ones summed over the edges arriving at each node, then one more. -/
def degLoopsAdded (hzN : S0.BroadcastsInDim (Vc N) ![]) (hzE : S0.BroadcastsInDim (Vc E) ![])
    (hE1 : (Vc E).BroadcastsInDim (Mx E 1) ![0]) (swf : ScatterDims.WF (Vc N) (Mx E 1) (Vc E) [] [0] [0] 1)
    (dst : IVec (Vc E) 32) : FVec Ideal (Vc N) .f32 :=
  addf
    (Host.scatterAdd (F := Ideal) (vecScatterDims N E swf)
      (broadcastInDim (Vc N) ![] hzN (constant (F := Ideal) S0 .f32 0x00000000#32))
      (broadcastInDim (Mx E 1) ![0] hE1 dst)
      (broadcastInDim (Vc E) ![] hzE (constant (F := Ideal) S0 .f32 0x3F800000#32)))
    (broadcastInDim (Vc N) ![] hzN (constant (F := Ideal) S0 .f32 0x3F800000#32))

/-- Degrees, loops among the edges: ones summed over the edges (loops included) arriving at each node. -/
def degLoopsListed (hzN : S0.BroadcastsInDim (Vc N) ![]) (hzE : S0.BroadcastsInDim (Vc E) ![])
    (hE1 : (Vc E).BroadcastsInDim (Mx E 1) ![0]) (swf : ScatterDims.WF (Vc N) (Mx E 1) (Vc E) [] [0] [0] 1)
    (d : IVec (Vc E) 32) : FVec Ideal (Vc N) .f32 :=
  Host.scatterAdd (F := Ideal) (vecScatterDims N E swf)
    (broadcastInDim (Vc N) ![] hzN (constant (F := Ideal) S0 .f32 0x00000000#32))
    (broadcastInDim (Mx E 1) ![0] hE1 d)
    (broadcastInDim (Vc E) ![] hzE (constant (F := Ideal) S0 .f32 0x3F800000#32))

/-- The aggregation with the factors applied to rows before and after the sum over arriving edges, the node's own row
    entering with the square of its factor. -/
def aggScaledRows (n : BitVec 32) (hzE : S0.BroadcastsInDim (Vc E) ![]) (hE1 : (Vc E).BroadcastsInDim (Mx E 1) ![0])
    (hN1 : (Vc N).BroadcastsInDim (Mx N 1) ![0]) (hNC : (Mx N 1).BroadcastsInDim (Mx N C) ![0, 1])
    (hzNC : S0.BroadcastsInDim (Mx N C) ![])
    (gwf : GatherDims.WF (Mx N C) (Mx E 1) (Mx E C) [1] [0] [] [0] [] 1 ![1, C])
    (swf : ScatterDims.WF (Mx N C) (Mx E 1) (Mx E C) [1] [0] [0] 1)
    (dinv : FVec Ideal (Vc N) .f32) (src dst : IVec (Vc E) 32) (h : FVec Ideal (Mx N C) .f32) :
    FVec Ideal (Mx N C) .f32 :=
  addf
    (mulf (broadcastInDim (Mx N C) ![0, 1] hNC (broadcastInDim (Mx N 1) ![0] hN1 dinv))
      (Host.scatterAdd (F := Ideal) (rowScatterDims N E C swf)
        (broadcastInDim (Mx N C) ![] hzNC (constant (F := Ideal) S0 .f32 0x00000000#32))
        (broadcastInDim (Mx E 1) ![0] hE1 dst)
        (Host.gather (rowGatherDims N E C gwf)
          (mulf h (broadcastInDim (Mx N C) ![0, 1] hNC (broadcastInDim (Mx N 1) ![0] hN1 dinv)))
          (broadcastInDim (Mx E 1) ![0] hE1 (wrapNeg n hzE src)))))
    (mulf (broadcastInDim (Mx N C) ![0, 1] hNC (broadcastInDim (Mx N 1) ![0] hN1 (mulf dinv dinv))) h)

/-- The aggregation with each edge's row scaled by the product of the factors of its two ends, loops listed among the
    edges. -/
def aggScaledEdges (n : BitVec 32) (hzE : S0.BroadcastsInDim (Vc E) ![]) (hE1 : (Vc E).BroadcastsInDim (Mx E 1) ![0])
    (hEC : (Mx E 1).BroadcastsInDim (Mx E C) ![0, 1]) (hzNC : S0.BroadcastsInDim (Mx N C) ![])
    (gvwf : GatherDims.WF (Vc N) (Mx E 1) (Vc E) [] [0] [] [0] [] 1 ![1])
    (gwf : GatherDims.WF (Mx N C) (Mx E 1) (Mx E C) [1] [0] [] [0] [] 1 ![1, C])
    (swf : ScatterDims.WF (Mx N C) (Mx E 1) (Mx E C) [1] [0] [0] 1)
    (dinv : FVec Ideal (Vc N) .f32) (s d : IVec (Vc E) 32) (h : FVec Ideal (Mx N C) .f32) :
    FVec Ideal (Mx N C) .f32 :=
  Host.scatterAdd (F := Ideal) (rowScatterDims N E C swf)
    (broadcastInDim (Mx N C) ![] hzNC (constant (F := Ideal) S0 .f32 0x00000000#32))
    (broadcastInDim (Mx E 1) ![0] hE1 d)
    (mulf
      (Host.gather (rowGatherDims N E C gwf) h (broadcastInDim (Mx E 1) ![0] hE1 (wrapNeg n hzE s)))
      (broadcastInDim (Mx E C) ![0, 1] hEC (broadcastInDim (Mx E 1) ![0] hE1
        (mulf
          (Host.gather (vecGatherDims N E gvwf) dinv (broadcastInDim (Mx E 1) ![0] hE1 (wrapNeg n hzE s)))
          (Host.gather (vecGatherDims N E gvwf) dinv (broadcastInDim (Mx E 1) ![0] hE1 (wrapNeg n hzE d)))))))

end Cert.GraphStages

end
-- ==== Proof.KernelStages.lean ====
/-
  The idealized kernel's result as one function of its six arguments, in stages, at this program's extents.

  The edge list's two rows; the nodes' normalising factors from the degrees counted over the edges, one added for each
  node's loop; the aggregation of a feature array over the graph (rows scaled before and after the sum over arriving
  edges, the node's own row entering with the square of its factor); and the composition: features times the first
  weights, aggregated, bias added and clamped at zero, times the second weights, aggregated, output bias added.
-/
import proofs.«146032_j7576322311022_2_alg».proof.Proof.Gen.KernelIdeal
import proofs.«146032_j7576322311022_2_alg».proof.Proof.LibGraphDefs
import proofs.«146032_j7576322311022_2_alg».proof.Proof.LibDenseStages
import Idealize.ShloMosaic.PureOps.Ideal

noncomputable section

namespace Cert.KernelIdeal.Fold

open Cert.KernelIdeal Cert.KernelIdeal.Gen Idealize.ShloMosaic Cert.GraphStages Cert.DenseStages

/-! ## The stages, at this program's extents -/

/-- The edges' sources and destinations: rows 0 and 1 of the [2, E] edge list. -/
def srcK (ei : IVec S2x3200000 32) : IVec S3200000 32 :=
  shapeCast _ (extractStridedSlice S1x3200000 ![0, 0] ei slices_S2x3200000_S1x3200000_0_0) shapeCasts_S1x3200000_S3200000
def dstK (ei : IVec S2x3200000 32) : IVec S3200000 32 :=
  shapeCast _ (extractStridedSlice S1x3200000 ![1, 0] ei slices_S2x3200000_S1x3200000_1_0) shapeCasts_S1x3200000_S3200000

/-- The nodes' normalising factors: from the degrees counted over the edges, one added for each node's loop. -/
def dinvK (ei : IVec S2x3200000 32) : FVec Ideal S100000 .f32 :=
  dinvOf (N := 100000) bcast_S_S100000
    (degLoopsAdded (N := 100000) (E := 3200000) bcast_S_S100000 bcast_S_S3200000 bcast_S3200000_S3200000x1_0
      scatter_S100000_S3200000x1_S3200000_n_0_0_1_wf (dstK ei))

/-- The aggregation of a 64-feature and of a 10-feature array over the graph. -/
def agg64 (ei : IVec S2x3200000 32) (h : FVec Ideal S100000x64 .f32) : FVec Ideal S100000x64 .f32 :=
  aggScaledRows (N := 100000) (E := 3200000) (C := 64) 100000#32 bcast_S_S3200000 bcast_S3200000_S3200000x1_0
    bcast_S100000_S100000x1_0 bcast_S100000x1_S100000x64_0_1 bcast_S_S100000x64
    gather_S100000x64_S3200000x1_S3200000x64_1_0_n_n_0_1_164_wf scatter_S100000x64_S3200000x1_S3200000x64_1_0_0_1_wf
    (dinvK ei) (srcK ei) (dstK ei) h
def agg10 (ei : IVec S2x3200000 32) (h : FVec Ideal S100000x10 .f32) : FVec Ideal S100000x10 .f32 :=
  aggScaledRows (N := 100000) (E := 3200000) (C := 10) 100000#32 bcast_S_S3200000 bcast_S3200000_S3200000x1_0
    bcast_S100000_S100000x1_0 bcast_S100000x1_S100000x10_0_1 bcast_S_S100000x10
    gather_S100000x10_S3200000x1_S3200000x10_1_0_n_n_0_1_110_wf scatter_S100000x10_S3200000x1_S3200000x10_1_0_0_1_wf
    (dinvK ei) (srcK ei) (dstK ei) h

/-- The kernel's result as one function of its six arguments. -/
def resultK (x : FVec Ideal S100000x512 .f32) (ei : IVec S2x3200000 32) (w1 : FVec Ideal S512x64 .f32)
    (b1 : FVec Ideal S64 .f32) (w2 : FVec Ideal S64x10 .f32) (b2 : FVec Ideal S10 .f32) : FVec Ideal S100000x10 .f32 :=
  addf
    (agg10 ei (matProd (M := 100000) (K := 64) (N := 10)
      (reluBias (M := 100000) (K := 64) (agg64 ei (matProd (M := 100000) (K := 512) (N := 64) x w1))
        (shapeCast S1x64 b1 shapeCasts_S64_S1x64)) w2))
    (broadcastInDim S100000x10 ![0, 1] bcast_S1x10_S100000x10_0_1 (broadcastInDim S1x10 ![1] bcast_S10_S1x10_1 b2))

end Cert.KernelIdeal.Fold

end
-- ==== Proof.KernelFold.lean ====
/-
  The idealized kernel's buffers at each boundary of its run, as functions of the launch contents.

  The run is a fold through six segments. Reading the fold back: the first stretch computes the edge list's source and
  destination vectors and the nodes' normalising factors; the first region leaves the product of the features with the
  first weight matrix; the next stretch aggregates it over the graph (rows scaled by the factors before and after the sum
  over arriving edges); the second region adds the bias, clamps at zero and multiplies by the second weight matrix; the
  last stretch aggregates again and adds the output bias. No segment writes an argument, the two index vectors or the
  factors after they are computed, so each is read at any later boundary as it was first written.
-/
import proofs.«146032_j7576322311022_2_alg».proof.Proof.Gen.KernelIdeal.Frame
import proofs.«146032_j7576322311022_2_alg».proof.Proof.RegionValues
import proofs.«146032_j7576322311022_2_alg».proof.Proof.LibGraphDefs
import proofs.«146032_j7576322311022_2_alg».proof.Proof.KernelStages
import proofs.«146032_j7576322311022_2_alg».proof.Proof.LibDenseStages
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Cert.GraphStages Cert.DenseStages Cert.KernelIdeal.RegionValues

variable (m : (ℓ : Loc nD τ sig) → Buf (Elt Ideal) ℓ) (ρ : Dev nD → PrngReg) (c : Dev nD)

/-- A buffer that no operation of a stretch writes is read after the stretch as before it. -/
macro "untouched " ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## The first two stretches: index vectors and normalising factors -/

theorem src_W1 : W1 m ρ c (Proc.devRef .tc main_v1) = srcK (m ((c : Thread nD τ).loc main_arg1)) := by
  show StableHlo.after hostOps0 (W0 m ρ c) (Proc.devRef .tc main_v1) = _
  after_results
  rfl

theorem dst_W1 : W1 m ρ c (Proc.devRef .tc main_v3) = dstK (m ((c : Thread nD τ).loc main_arg1)) := by
  show StableHlo.after hostOps0 (W0 m ρ c) (Proc.devRef .tc main_v3) = _
  after_results
  rfl

/-- The degrees, their comparison against zero, their reciprocal roots and the zero of the last stretch's selection,
    as the first stretch leaves them. -/
theorem mask_W1 : W1 m ρ c (Proc.devRef .tc main_v11)
    = cmpf (F := Ideal) .ogt
        (degLoopsAdded (N := 100000) (E := 3200000) bcast_S_S100000 bcast_S_S3200000 bcast_S3200000_S3200000x1_0
          scatter_S100000_S3200000x1_S3200000_n_0_0_1_wf (dstK (m ((c : Thread nD τ).loc main_arg1))))
        (broadcastInDim S100000 ![] bcast_S_S100000 (constant (F := Ideal) S_ .f32 0x00000000#32)) := by
  show StableHlo.after hostOps0 (W0 m ρ c) (Proc.devRef .tc main_v11) = _
  after_results
  rfl

theorem rsqrt_W1 : W1 m ρ c (Proc.devRef .tc main_v12)
    = Host.rsqrt (F := Ideal)
        (degLoopsAdded (N := 100000) (E := 3200000) bcast_S_S100000 bcast_S_S3200000 bcast_S3200000_S3200000x1_0
          scatter_S100000_S3200000x1_S3200000_n_0_0_1_wf (dstK (m ((c : Thread nD τ).loc main_arg1)))) := by
  show StableHlo.after hostOps0 (W0 m ρ c) (Proc.devRef .tc main_v12) = _
  after_results
  rfl

theorem zero_W1 : W1 m ρ c (Proc.devRef .tc main_cst_3) = constant (F := Ideal) S_ .f32 0x00000000#32 := by
  show StableHlo.after hostOps0 (W0 m ρ c) (Proc.devRef .tc main_cst_3) = _
  after_results

/-- The selection of the second stretch, over whatever the first stretch left. -/
theorem select_W2 : W2 m ρ c (Proc.devRef .tc main_v13)
    = select (W1 m ρ c (Proc.devRef .tc main_v11)) (W1 m ρ c (Proc.devRef .tc main_v12))
        (broadcastInDim S100000 ![] bcast_S_S100000 (id (W1 m ρ c (Proc.devRef .tc main_cst_3)))) := by
  show StableHlo.after hostOps0_1 (W1 m ρ c) (Proc.devRef .tc main_v13) = _
  generalize W1 m ρ c = V
  after_results
  rfl

theorem dinv_W2 : W2 m ρ c (Proc.devRef .tc main_v13) = dinvK (m ((c : Thread nD τ).loc main_arg1)) := by
  rw [select_W2 m ρ c, mask_W1 m ρ c, rsqrt_W1 m ρ c, zero_W1 m ρ c]
  rfl

theorem src_W2 : W2 m ρ c (Proc.devRef .tc main_v1) = srcK (m ((c : Thread nD τ).loc main_arg1)) :=
  (show StableHlo.after hostOps0_1 (W1 m ρ c) (Proc.devRef .tc main_v1) = W1 m ρ c (Proc.devRef .tc main_v1) by
    untouched hostOps0_1).trans (src_W1 m ρ c)

theorem dst_W2 : W2 m ρ c (Proc.devRef .tc main_v3) = dstK (m ((c : Thread nD τ).loc main_arg1)) :=
  (show StableHlo.after hostOps0_1 (W1 m ρ c) (Proc.devRef .tc main_v3) = W1 m ρ c (Proc.devRef .tc main_v3) by
    untouched hostOps0_1).trans (dst_W1 m ρ c)

/-! ## The arguments at region 0's entry -/

theorem main_arg0_W2 : W2 m ρ c (Proc.devRef .tc main_arg0) = m ((c : Thread nD τ).loc main_arg0) :=
  (show StableHlo.after hostOps0_1 (W1 m ρ c) (Proc.devRef .tc main_arg0) = W1 m ρ c (Proc.devRef .tc main_arg0) by
    untouched hostOps0_1).trans
  ((show StableHlo.after hostOps0 (W0 m ρ c) (Proc.devRef .tc main_arg0) = W0 m ρ c (Proc.devRef .tc main_arg0) by
    untouched hostOps0).trans rfl)

theorem main_arg2_W2 : W2 m ρ c (Proc.devRef .tc main_arg2) = m ((c : Thread nD τ).loc main_arg2) :=
  (show StableHlo.after hostOps0_1 (W1 m ρ c) (Proc.devRef .tc main_arg2) = W1 m ρ c (Proc.devRef .tc main_arg2) by
    untouched hostOps0_1).trans
  ((show StableHlo.after hostOps0 (W0 m ρ c) (Proc.devRef .tc main_arg2) = W0 m ρ c (Proc.devRef .tc main_arg2) by
    untouched hostOps0).trans rfl)

theorem main_arg3_W2 : W2 m ρ c (Proc.devRef .tc main_arg3) = m ((c : Thread nD τ).loc main_arg3) :=
  (show StableHlo.after hostOps0_1 (W1 m ρ c) (Proc.devRef .tc main_arg3) = W1 m ρ c (Proc.devRef .tc main_arg3) by
    untouched hostOps0_1).trans
  ((show StableHlo.after hostOps0 (W0 m ρ c) (Proc.devRef .tc main_arg3) = W0 m ρ c (Proc.devRef .tc main_arg3) by
    untouched hostOps0).trans rfl)

theorem main_arg4_W2 : W2 m ρ c (Proc.devRef .tc main_arg4) = m ((c : Thread nD τ).loc main_arg4) :=
  (show StableHlo.after hostOps0_1 (W1 m ρ c) (Proc.devRef .tc main_arg4) = W1 m ρ c (Proc.devRef .tc main_arg4) by
    untouched hostOps0_1).trans
  ((show StableHlo.after hostOps0 (W0 m ρ c) (Proc.devRef .tc main_arg4) = W0 m ρ c (Proc.devRef .tc main_arg4) by
    untouched hostOps0).trans rfl)

theorem main_arg5_W2 : W2 m ρ c (Proc.devRef .tc main_arg5) = m ((c : Thread nD τ).loc main_arg5) :=
  (show StableHlo.after hostOps0_1 (W1 m ρ c) (Proc.devRef .tc main_arg5) = W1 m ρ c (Proc.devRef .tc main_arg5) by
    untouched hostOps0_1).trans
  ((show StableHlo.after hostOps0 (W0 m ρ c) (Proc.devRef .tc main_arg5) = W0 m ρ c (Proc.devRef .tc main_arg5) by
    untouched hostOps0).trans rfl)

/-! ## The first region: the product of the features with the first weight matrix; everything else as entered -/

theorem prod_W3 : W3 m ρ c (Proc.devRef .tc main_v14)
    = matProd (M := 100000) (K := 512) (N := 64) (m ((c : Thread nD τ).loc main_arg0)) (m ((c : Thread nD τ).loc main_arg2)) := by
  refine (W3_arr m ρ c 2).trans ((region0_value (V2 m ρ) c).trans ?_)
  rw [show V2 m ρ c main_arg0 = m ((c : Thread nD τ).loc main_arg0) from main_arg0_W2 m ρ c,
    show V2 m ρ c main_arg2 = m ((c : Thread nD τ).loc main_arg2) from main_arg2_W2 m ρ c]

theorem src_W3 : W3 m ρ c (Proc.devRef .tc main_v1) = srcK (m ((c : Thread nD τ).loc main_arg1)) :=
  (W3_of_ne m ρ c main_v1 (by decide)).trans (src_W2 m ρ c)

theorem dst_W3 : W3 m ρ c (Proc.devRef .tc main_v3) = dstK (m ((c : Thread nD τ).loc main_arg1)) :=
  (W3_of_ne m ρ c main_v3 (by decide)).trans (dst_W2 m ρ c)

theorem dinv_W3 : W3 m ρ c (Proc.devRef .tc main_v13) = dinvK (m ((c : Thread nD τ).loc main_arg1)) :=
  (W3_of_ne m ρ c main_v13 (by decide)).trans (dinv_W2 m ρ c)

theorem main_arg3_W3 : W3 m ρ c (Proc.devRef .tc main_arg3) = m ((c : Thread nD τ).loc main_arg3) :=
  (W3_of_ne m ρ c main_arg3 (by decide)).trans (main_arg3_W2 m ρ c)

theorem main_arg4_W3 : W3 m ρ c (Proc.devRef .tc main_arg4) = m ((c : Thread nD τ).loc main_arg4) :=
  (W3_of_ne m ρ c main_arg4 (by decide)).trans (main_arg4_W2 m ρ c)

theorem main_arg5_W3 : W3 m ρ c (Proc.devRef .tc main_arg5) = m ((c : Thread nD τ).loc main_arg5) :=
  (W3_of_ne m ρ c main_arg5 (by decide)).trans (main_arg5_W2 m ρ c)

/-! ## The third stretch: the first aggregation, and the bias as a row -/

set_option maxHeartbeats 4000000 in
/-- The third stretch over any entry contents: its last sum is the aggregation of the region's output with the factors
    and index vectors it finds. -/
theorem stretch_agg64 (V : Valuation τ sig (Elt Ideal)) :
    StableHlo.after hostOps1 V (Proc.devRef .tc main_v35)
      = aggScaledRows (N := 100000) (E := 3200000) (C := 64) 100000#32 bcast_S_S3200000 bcast_S3200000_S3200000x1_0
          bcast_S100000_S100000x1_0 bcast_S100000x1_S100000x64_0_1 bcast_S_S100000x64
          gather_S100000x64_S3200000x1_S3200000x64_1_0_n_n_0_1_164_wf scatter_S100000x64_S3200000x1_S3200000x64_1_0_0_1_wf
          (V (Proc.devRef .tc main_v13)) (V (Proc.devRef .tc main_v1)) (V (Proc.devRef .tc main_v3))
          (V (Proc.devRef .tc main_v14)) := by
  after_results_simp
  rfl

theorem agg_W4 : W4 m ρ c (Proc.devRef .tc main_v35)
    = agg64 (m ((c : Thread nD τ).loc main_arg1)) (matProd (M := 100000) (K := 512) (N := 64) (m ((c : Thread nD τ).loc main_arg0)) (m ((c : Thread nD τ).loc main_arg2))) := by
  refine (stretch_agg64 (W3 m ρ c)).trans ?_
  rw [dinv_W3 m ρ c, src_W3 m ρ c, dst_W3 m ρ c, prod_W3 m ρ c]
  rfl

theorem bias_W4 : W4 m ρ c (Proc.devRef .tc main_v36) = shapeCast S1x64 (m ((c : Thread nD τ).loc main_arg3)) shapeCasts_S64_S1x64 := by
  show StableHlo.after hostOps1 (W3 m ρ c) (Proc.devRef .tc main_v36) = _
  after_results
  rw [main_arg3_W3 m ρ c]
  rfl

theorem src_W4 : W4 m ρ c (Proc.devRef .tc main_v1) = srcK (m ((c : Thread nD τ).loc main_arg1)) :=
  (show StableHlo.after hostOps1 (W3 m ρ c) (Proc.devRef .tc main_v1) = W3 m ρ c (Proc.devRef .tc main_v1) by
    untouched hostOps1).trans (src_W3 m ρ c)

theorem dst_W4 : W4 m ρ c (Proc.devRef .tc main_v3) = dstK (m ((c : Thread nD τ).loc main_arg1)) :=
  (show StableHlo.after hostOps1 (W3 m ρ c) (Proc.devRef .tc main_v3) = W3 m ρ c (Proc.devRef .tc main_v3) by
    untouched hostOps1).trans (dst_W3 m ρ c)

theorem dinv_W4 : W4 m ρ c (Proc.devRef .tc main_v13) = dinvK (m ((c : Thread nD τ).loc main_arg1)) :=
  (show StableHlo.after hostOps1 (W3 m ρ c) (Proc.devRef .tc main_v13) = W3 m ρ c (Proc.devRef .tc main_v13) by
    untouched hostOps1).trans (dinv_W3 m ρ c)

theorem main_arg4_W4 : W4 m ρ c (Proc.devRef .tc main_arg4) = m ((c : Thread nD τ).loc main_arg4) :=
  (show StableHlo.after hostOps1 (W3 m ρ c) (Proc.devRef .tc main_arg4) = W3 m ρ c (Proc.devRef .tc main_arg4) by
    untouched hostOps1).trans (main_arg4_W3 m ρ c)

theorem main_arg5_W4 : W4 m ρ c (Proc.devRef .tc main_arg5) = m ((c : Thread nD τ).loc main_arg5) :=
  (show StableHlo.after hostOps1 (W3 m ρ c) (Proc.devRef .tc main_arg5) = W3 m ρ c (Proc.devRef .tc main_arg5) by
    untouched hostOps1).trans (main_arg5_W3 m ρ c)

/-! ## The second region: bias, clamp at zero, product with the second weight matrix -/

theorem hidden_W5 : W5 m ρ c (Proc.devRef .tc main_v37)
    = matProd (M := 100000) (K := 64) (N := 10)
        (reluBias (M := 100000) (K := 64)
          (agg64 (m ((c : Thread nD τ).loc main_arg1)) (matProd (M := 100000) (K := 512) (N := 64) (m ((c : Thread nD τ).loc main_arg0)) (m ((c : Thread nD τ).loc main_arg2))))
          (shapeCast S1x64 (m ((c : Thread nD τ).loc main_arg3)) shapeCasts_S64_S1x64))
        (m ((c : Thread nD τ).loc main_arg4)) := by
  refine (W5_arr m ρ c 3).trans ((region1_value (V4 m ρ) c).trans ?_)
  rw [show V4 m ρ c main_v35 = _ from agg_W4 m ρ c, show V4 m ρ c main_v36 = _ from bias_W4 m ρ c,
    show V4 m ρ c main_arg4 = _ from main_arg4_W4 m ρ c]

theorem src_W5 : W5 m ρ c (Proc.devRef .tc main_v1) = srcK (m ((c : Thread nD τ).loc main_arg1)) :=
  (W5_of_ne m ρ c main_v1 (by decide)).trans (src_W4 m ρ c)

theorem dst_W5 : W5 m ρ c (Proc.devRef .tc main_v3) = dstK (m ((c : Thread nD τ).loc main_arg1)) :=
  (W5_of_ne m ρ c main_v3 (by decide)).trans (dst_W4 m ρ c)

theorem dinv_W5 : W5 m ρ c (Proc.devRef .tc main_v13) = dinvK (m ((c : Thread nD τ).loc main_arg1)) :=
  (W5_of_ne m ρ c main_v13 (by decide)).trans (dinv_W4 m ρ c)

theorem main_arg5_W5 : W5 m ρ c (Proc.devRef .tc main_arg5) = m ((c : Thread nD τ).loc main_arg5) :=
  (W5_of_ne m ρ c main_arg5 (by decide)).trans (main_arg5_W4 m ρ c)

/-! ## The last stretch: the second aggregation and the output bias -/

set_option maxHeartbeats 4000000 in
/-- The last stretch over any entry contents: the aggregation of the second region's output, the output bias added. -/
theorem stretch_result (V : Valuation τ sig (Elt Ideal)) :
    StableHlo.after hostOps2 V (Proc.devRef .tc main_v61)
      = addf
          (aggScaledRows (N := 100000) (E := 3200000) (C := 10) 100000#32 bcast_S_S3200000 bcast_S3200000_S3200000x1_0
            bcast_S100000_S100000x1_0 bcast_S100000x1_S100000x10_0_1 bcast_S_S100000x10
            gather_S100000x10_S3200000x1_S3200000x10_1_0_n_n_0_1_110_wf scatter_S100000x10_S3200000x1_S3200000x10_1_0_0_1_wf
            (V (Proc.devRef .tc main_v13)) (V (Proc.devRef .tc main_v1)) (V (Proc.devRef .tc main_v3))
            (V (Proc.devRef .tc main_v37)))
          (broadcastInDim S100000x10 ![0, 1] bcast_S1x10_S100000x10_0_1
            (broadcastInDim S1x10 ![1] bcast_S10_S1x10_1 (V (Proc.devRef .tc main_arg5)))) := by
  after_results_simp
  rfl

/-- The result buffer at the last boundary is the kernel's function of the launch contents of the six arguments. -/
theorem result_W6 : W6 m ρ c (Proc.devRef .tc main_v61)
    = resultK (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (stretch_result (W5 m ρ c)).trans ?_
  rw [dinv_W5 m ρ c, src_W5 m ρ c, dst_W5 m ρ c, hidden_W5 m ρ c, main_arg5_W5 m ρ c]
  rfl

end Cert.KernelIdeal.Fold

end
-- ==== Proof.RefStages.lean ====
/-
  The idealized reference as one function of its six arguments, in stages.

  The reference lists the graph's edges as the given edges followed by one loop per node, counts degrees over that list,
  takes the normalising factors, and in each of its two layers multiplies by the layer's weights, scales every listed
  edge's source row by the product of the factors of the edge's two ends, sums the rows arriving at each node and adds
  the layer's bias; between the layers it clamps at zero. The stages are the general ones, at this program's extents;
  the program's operations, composed in order, are literally this term.
-/
import proofs.«146032_j7576322311022_2_alg».proof.Proof.RefRead
import proofs.«146032_j7576322311022_2_alg».proof.Proof.LibGraphDefs
import Idealize.ShloMosaic.PureOps.Ideal

set_option maxRecDepth 16384

noncomputable section

namespace Cert.ReferenceIdeal.Stages

open Cert.ReferenceIdeal Cert.ReferenceIdeal.Gen Idealize.ShloMosaic Cert.GraphStages Cert.ReferenceIdeal.ReadP

/-- The edges' sources and destinations: rows 0 and 1 of the [2, E] edge list. -/
def srcR (ei : IVec S2x3200000 32) : IVec S3200000 32 :=
  shapeCast _ (extractStridedSlice S1x3200000 ![0, 0] ei slices_S2x3200000_S1x3200000_0_0) shapeCasts_S1x3200000_S3200000
def dstR (ei : IVec S2x3200000 32) : IVec S3200000 32 :=
  shapeCast _ (extractStridedSlice S1x3200000 ![1, 0] ei slices_S2x3200000_S1x3200000_1_0) shapeCasts_S1x3200000_S3200000

/-- An index vector followed by the loops' indices 0, 1, …, N − 1. -/
def withLoops (u : IVec S3200000 32) : IVec S3300000 32 :=
  concatenate S3300000 0 [⟨S3200000, u⟩, ⟨S100000, iotaInDim S100000 32 0⟩] concatenates_S3200000_S100000_S3300000_d0

/-- The nodes' normalising factors, from the degrees counted over edges and loops. -/
def dinvR (ei : IVec S2x3200000 32) : FVec Ideal S100000 .f32 :=
  dinvOf (N := 100000) bcast_S_S100000
    (degLoopsListed (N := 100000) (E := 3300000) bcast_S_S100000 bcast_S_S3300000 bcast_S3300000_S3300000x1_0
      scatter_S100000_S3300000x1_S3300000_n_0_0_1_wf (withLoops (dstR ei)))

/-- The aggregation of a 64-feature and of a 10-feature array over edges and loops. -/
def aggR64 (ei : IVec S2x3200000 32) (h : FVec Ideal S100000x64 .f32) : FVec Ideal S100000x64 .f32 :=
  aggScaledEdges (N := 100000) (E := 3300000) (C := 64) 100000#32 bcast_S_S3300000 bcast_S3300000_S3300000x1_0
    bcast_S3300000x1_S3300000x64_0_1 bcast_S_S100000x64 gather_S100000_S3300000x1_S3300000_n_0_n_n_0_1_1_wf
    gather_S100000x64_S3300000x1_S3300000x64_1_0_n_n_0_1_164_wf scatter_S100000x64_S3300000x1_S3300000x64_1_0_0_1_wf
    (dinvR ei) (withLoops (srcR ei)) (withLoops (dstR ei)) h
def aggR10 (ei : IVec S2x3200000 32) (h : FVec Ideal S100000x10 .f32) : FVec Ideal S100000x10 .f32 :=
  aggScaledEdges (N := 100000) (E := 3300000) (C := 10) 100000#32 bcast_S_S3300000 bcast_S3300000_S3300000x1_0
    bcast_S3300000x1_S3300000x10_0_1 bcast_S_S100000x10 gather_S100000_S3300000x1_S3300000_n_0_n_n_0_1_1_wf
    gather_S100000x10_S3300000x1_S3300000x10_1_0_n_n_0_1_110_wf scatter_S100000x10_S3300000x1_S3300000x10_1_0_0_1_wf
    (dinvR ei) (withLoops (srcR ei)) (withLoops (dstR ei)) h

/-- The first layer's output, bias added and clamped at zero. -/
def hiddenR (x : FVec Ideal S100000x512 .f32) (ei : IVec S2x3200000 32) (w1 : FVec Ideal S512x64 .f32)
    (b1 : FVec Ideal S64 .f32) : FVec Ideal S100000x64 .f32 :=
  maximumf
    (addf (aggR64 ei (Host.dotGeneral dot_S100000x512_S512x64_S100000x64_1_0_0_1_n_n none x w1))
      (broadcastInDim S100000x64 ![0, 1] bcast_S1x64_S100000x64_0_1 (broadcastInDim S1x64 ![1] bcast_S64_S1x64_1 b1)))
    (broadcastInDim S100000x64 ![] bcast_S_S100000x64 (constant (F := Ideal) S_ .f32 0x00000000#32))

/-- The reference's result as one function of its six arguments. -/
def resultR (x : FVec Ideal S100000x512 .f32) (ei : IVec S2x3200000 32) (w1 : FVec Ideal S512x64 .f32)
    (b1 : FVec Ideal S64 .f32) (w2 : FVec Ideal S64x10 .f32) (b2 : FVec Ideal S10 .f32) : FVec Ideal S100000x10 .f32 :=
  addf
    (aggR10 ei (Host.dotGeneral dot_S100000x64_S64x10_S100000x10_1_0_0_1_n_n none (hiddenR x ei w1 b1) w2))
    (broadcastInDim S100000x10 ![0, 1] bcast_S1x10_S100000x10_0_1 (broadcastInDim S1x10 ![1] bcast_S10_S1x10_1 b2))

/-- The program's last stage, composed from its first, is that function: operation by operation the same term. -/
theorem val_result (x : FVec Ideal S100000x512 .f32) (ei : IVec S2x3200000 32) (w1 : FVec Ideal S512x64 .f32)
    (b1 : FVec Ideal S64 .f32) (w2 : FVec Ideal S64x10 .f32) (b2 : FVec Ideal S10 .f32) :
    val_main_v90 (F := Ideal) x ei w1 b1 w2 b2 = resultR x ei w1 b1 w2 b2 := rfl

end Cert.ReferenceIdeal.Stages

end
-- ==== Proof.LibIndexedRows.lean ====
/-
  The host's row gather and accumulating row scatter, read at an index, for any extents and any index width.
  A gather of rows of an [N, C] table (or of entries of an [N] vector) at an [E, 1] array of start indices reads the
  row whose number is the start index taken signed and clamped into [0, N - 1].  An accumulating scatter of the rows
  of an [E, C] array (or the entries of an [E] vector) into an [N, C] table (an [N] vector) adds, at row i, exactly the
  update rows whose index, taken signed and not clamped, equals i; indices outside [0, N) contribute nothing.
-/
import Idealize.ShloMosaic.PureOps.Ideal
import Idealize.ShloMosaic.PureOps.Ideal.Laws
import Idealize.ShloMosaic.Lib.ValueIdx
import Idealize.ShloMosaic.Lib.Pipeline.Value
import proofs.«146032_j7576322311022_2_alg».proof.Proof.LibSegmentDims

noncomputable section

open scoped BigOperators

namespace Cert.LibIndexedRows

open Idealize.ShloMosaic Idealize.ShloMosaic.ValueIdx Cert.SegmentDims

/-! ## Where an update lands -/

/-- An update index lands on operand index `i` exactly when, on every operand axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hg a
      have h1 := congrArg Fin.val (congrFun hg a)
      have h2 := h a
      simp only at h1
      omega
    · intro hg
      funext a
      refine Fin.ext ?_
      have h1 := hg a
      have h2 := h a
      simp only
      omega
  · rename_i h
    constructor
    · intro hn; exact absurd hn (by simp)
    · intro hg
      exfalso
      apply h
      intro a
      have h1 := hg a
      have h2 := (i a).isLt
      omega

/-! ## Rows of a table: scatter -/

section RowScatter
variable {N E C w : Nat} (wf : ScatterDims.WF ⟨2, ![N, C]⟩ ⟨2, ![E, 1]⟩ ⟨2, ![E, C]⟩ [1] [0] [0] 1)

/-- On the row axis the start is the update row's index, read signed. -/
theorem rowScatter_start0 (idx : IVec ⟨2, ![E, 1]⟩ w) (e : Fin E) (f' : Fin C) :
    (rowScatterDims N E C wf).start (ix2 e f') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e f') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the start is zero. -/
theorem rowScatter_start1 (idx : IVec ⟨2, ![E, 1]⟩ w) (j : (⟨2, ![E, C]⟩ : Shape).Idx) :
    (rowScatterDims N E C wf).start j idx 1 = 0 := by
  unfold ScatterDims.start
  have hk : (1 : Fin 2) ∉ (rowScatterDims N E C wf).scatterDimsToOperandDims :=
    (by decide : (1 : Fin 2) ∉ ([0] : List (Fin 2)))
  rw [dif_neg hk]

/-- On the row axis the window coordinate is zero. -/
theorem rowScatter_window0 (j : (⟨2, ![E, C]⟩ : Shape).Idx) : (rowScatterDims N E C wf).window j 0 = 0 := by
  unfold ScatterDims.window
  have hk : (0 : Fin 2) ∉ (rowScatterDims N E C wf).sKept :=
    (by decide : (0 : Fin 2) ∉ (List.finRange 2).filter (· ∉ ([0] : List (Fin 2))))
  rw [dif_neg hk]

/-- On the column axis the window coordinate is the update's column. -/
theorem rowScatter_window1 (e : Fin E) (f' : Fin C) : (rowScatterDims N E C wf).window (ix2 e f') 1 = f'.val := by
  unfold ScatterDims.window
  have hk : (1 : Fin 2) ∈ (rowScatterDims N E C wf).sKept :=
    (by decide : (1 : Fin 2) ∈ (List.finRange 2).filter (· ∉ ([0] : List (Fin 2))))
  rw [dif_pos hk]
  rfl

/-- Update `(e, f')` lands on `(i, f)` exactly when its row index, read signed, is `i` and its column is `f`. -/
theorem rowScatter_resultIdx?_iff (idx : IVec ⟨2, ![E, 1]⟩ w) (e : Fin E) (f' : Fin C) (i : Fin N) (f : Fin C) :
    (rowScatterDims N E C wf).resultIdx? (ix2 e f') idx = some (ix2 i f) ↔
      (idx (ix2 e (0 : Fin 1))).toInt = (i.val : ℤ) ∧ f' = f := by
  rw [resultIdx?_eq_some_iff]
  constructor
  · intro h
    have h0 := h 0
    have h1 := h 1
    rw [rowScatter_start0, rowScatter_window0] at h0
    rw [rowScatter_start1, rowScatter_window1] at h1
    refine ⟨?_, Fin.ext ?_⟩
    · simp only [Nat.cast_zero, add_zero] at h0
      exact h0
    · simp only [zero_add, Nat.cast_inj] at h1
      exact h1
  · rintro ⟨ht, rfl⟩ a
    match a with
    | ⟨0, _⟩ =>
      show (rowScatterDims N E C wf).start (ix2 e f') idx 0 + ((rowScatterDims N E C wf).window (ix2 e f') 0 : ℤ) = _
      rw [rowScatter_start0, rowScatter_window0, ht]; simp
    | ⟨1, _⟩ =>
      show (rowScatterDims N E C wf).start (ix2 e f') idx 1 + ((rowScatterDims N E C wf).window (ix2 e f') 1 : ℤ) = _
      rw [rowScatter_start1, rowScatter_window1]; simp

/-- THE ROW SCATTER READ AT `(i, f)`: the table's entry plus the entries in column `f` of the update rows whose index,
    read signed and not clamped, is `i`. -/
theorem scatterAdd_rows_apply (x : FVec Ideal ⟨2, ![N, C]⟩ .f32) (idx : IVec ⟨2, ![E, 1]⟩ w)
    (upd : FVec Ideal ⟨2, ![E, C]⟩ .f32) (i : Fin N) (f : Fin C) :
    Host.scatterAdd (F := Ideal) (rowScatterDims N E C wf) x idx upd (ix2 i f) =
      x (ix2 i f) + ∑ e : Fin E, if (idx (ix2 e (0 : Fin 1))).toInt = (i.val : ℤ) then upd (ix2 e f) else 0 := by
  show x (ix2 i f) + ∑ j ∈ Finset.univ.filter
      (fun j => (rowScatterDims N E C wf).resultIdx? j idx = some (ix2 i f)), upd j = _
  congr 1
  rw [Finset.sum_filter, sum_idx2]
  refine Finset.sum_congr rfl fun e _ => ?_
  simp only [rowScatter_resultIdx?_iff]
  by_cases ht : (idx (ix2 e (0 : Fin 1))).toInt = (i.val : ℤ)
  · simp only [ht, true_and, if_true]
    exact Finset.sum_ite_eq' Finset.univ f (fun f' => upd (ix2 e f')) |>.trans (if_pos (Finset.mem_univ f))
  · simp only [ht, false_and, if_false, Finset.sum_const_zero]

end RowScatter

/-! ## Entries of a vector: scatter -/

/-- A rank-1 index set is its one coordinate range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (g : (⟨1, ![n]⟩ : Shape).Idx → M) :
    ∑ j, g j = ∑ a : Fin n, g (ix1 a) := by
  rw [← Equiv.sum_comp (idxEquiv1 (n := n)).symm g]
  rfl

section VecScatter
variable {N E w : Nat} (wf : ScatterDims.WF ⟨1, ![N]⟩ ⟨2, ![E, 1]⟩ ⟨1, ![E]⟩ [] [0] [0] 1)

/-- The start is the update entry's index, read signed. -/
theorem vecScatter_start0 (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window: the window coordinate is zero. -/
theorem vecScatter_window0 (j : (⟨1, ![E]⟩ : Shape).Idx) : (vecScatterDims N E wf).window j 0 = 0 := by
  unfold ScatterDims.window
  have hk : (0 : Fin 1) ∉ (vecScatterDims N E wf).sKept :=
    (by decide : (0 : Fin 1) ∉ (List.finRange 1).filter (· ∉ ([0] : List (Fin 1))))
  rw [dif_neg hk]

/-- Update `e` lands on `i` exactly when its index, read signed, is `i`. -/
theorem vecScatter_resultIdx?_iff (idx : IVec ⟨2, ![E, 1]⟩ w) (e : Fin E) (i : Fin N) :
    (vecScatterDims N E wf).resultIdx? (ix1 e) idx = some (ix1 i) ↔ (idx (ix2 e (0 : Fin 1))).toInt = (i.val : ℤ) := by
  rw [resultIdx?_eq_some_iff]
  constructor
  · intro h
    have h0 := h 0
    rw [vecScatter_start0, vecScatter_window0, Nat.cast_zero, add_zero] at h0
    exact h0
  · intro ht a
    obtain rfl : a = 0 := Subsingleton.elim _ _
    show (vecScatterDims N E wf).start (ix1 e) idx 0 + ((vecScatterDims N E wf).window (ix1 e) 0 : ℤ) = (i.val : ℤ)
    rw [vecScatter_start0, vecScatter_window0, ht, Nat.cast_zero, add_zero]

/-- THE VECTOR SCATTER READ AT `i`: the vector's entry plus the update entries whose index, read signed and not
    clamped, is `i`. -/
theorem scatterAdd_vec_apply (x : FVec Ideal ⟨1, ![N]⟩ .f32) (idx : IVec ⟨2, ![E, 1]⟩ w)
    (upd : FVec Ideal ⟨1, ![E]⟩ .f32) (i : Fin N) :
    Host.scatterAdd (F := Ideal) (vecScatterDims N E wf) x idx upd (ix1 i) =
      x (ix1 i) + ∑ e : Fin E, if (idx (ix2 e (0 : Fin 1))).toInt = (i.val : ℤ) then upd (ix1 e) else 0 := by
  show x (ix1 i) + ∑ j ∈ Finset.univ.filter
      (fun j => (vecScatterDims N E wf).resultIdx? j idx = some (ix1 i)), upd j = _
  congr 1
  rw [Finset.sum_filter, sum_idx1]
  refine Finset.sum_congr rfl fun e _ => ?_
  simp only [vecScatter_resultIdx?_iff]

end VecScatter

/-! ## Rows of a table: gather -/

section RowGather
variable {α : Type} {N E C w : Nat}

/-- THE ROW GATHER READ AT `(e, f)`: column `f` of the row whose number is the start index `idx[e, 0]`, read signed and
    clamped into `[0, N - 1]`. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f) =
      x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N E C wf).start (ix2 e f) idx 0 + (rowGatherDims N E C wf).batchCoord (ix2 e f) 0 +
      (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e f) idx 1 + (rowGatherDims N E C wf).batchCoord (ix2 e f) 1 +
      (rowGatherDims N E C wf).offCoord (ix2 e f) 1 = f.val
    rw [GatherDims.batchCoord_eq_zero _ _ _ List.not_mem_nil]
    have hs : (rowGatherDims N E C wf).start (ix2 e f) idx 1 = 0 := by
      unfold GatherDims.start
      have hk : (1 : Fin 2) ∉ (rowGatherDims N E C wf).startIndexMap :=
        (by decide : (1 : Fin 2) ∉ ([0] : List (Fin 2)))
      rw [dif_neg hk]
    have ho : (rowGatherDims N E C wf).offCoord (ix2 e f) 1 = f.val := by
      unfold GatherDims.offCoord
      have hk : (1 : Fin 2) ∈ (rowGatherDims N E C wf).sKept :=
        (by decide : (1 : Fin 2) ∈ (List.finRange 2).filter (· ∉ (([0] : List (Fin 2)) ++ [])))
      rw [dif_pos hk]
      rfl
    rw [hs, ho]
    simp only [Nat.zero_add]

end RowGather

/-! ## Entries of a vector: gather -/

section VecGather
variable {α : Type} {N E w : Nat}

/-- THE VECTOR GATHER READ AT `e`: the entry at the start index `idx[e, 0]`, read signed and clamped into
    `[0, N - 1]`. -/
theorem gather_vec_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) =
      x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0 +
    (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

end Cert.LibIndexedRows

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibGraphReads.lean ====
/-
  The stages of the symmetric-normalised graph convolution, read at an index.

  Each whole-array stage becomes a formula in its entries: a wrapped index vector reads entry by entry, the normalising
  factors read entry by entry, a degree is a sum over the edges of one for every edge arriving at the node, and the
  aggregation at (i, f), in either arrangement, is a sum over the edges arriving at node i of the source row's entry f
  times normalising factors, the source read with its negative words wrapped and then clamped to a valid row.
  The normalising factor of any extended real is nonnegative and never plus infinity.
-/
import Idealize.ShloMosaic.PureOps.Ideal
import Idealize.ShloMosaic.PureOps.Ideal.Laws
import Idealize.ShloMosaic.Lib.ValueIdx
import Idealize.ShloMosaic.Lib.Pipeline.Value
import proofs.«146032_j7576322311022_2_alg».proof.Proof.LibGraphDefs
import proofs.«146032_j7576322311022_2_alg».proof.Proof.LibIndexedRows
import proofs.«146032_j7576322311022_2_alg».proof.Proof.LibInDimLayout

noncomputable section

open scoped BigOperators

namespace Cert.GraphStages

open Idealize.ShloMosaic Idealize.ShloMosaic.ValueIdx Cert.SegmentDims Cert.LibIndexedRows Cert.LibInDimLayout

variable {N E C : ℕ}

/-! ## Entry-by-entry stages -/

/-- A scalar constant spread over any shape reads the constant's value at every index. -/
theorem scalarSpread_apply {s : Shape} (hz : S0.BroadcastsInDim s ![]) (b : BitVec 32) (i : s.Idx) :
    broadcastInDim s ![] hz (constant (F := Ideal) S0 .f32 b) i = Ideal.ofBits .f32 b := rfl

/-- The wrapped index vector at e is the wrapped word at e. -/
theorem wrapNeg_apply (n : BitVec 32) (hzE : S0.BroadcastsInDim (Vc E) ![]) (x : IVec (Vc E) 32) (e : Fin E) :
    wrapNeg n hzE x (ix1 e) = wrap1 n (x (ix1 e)) := rfl

/-- The normalising factors at i are the normalising factor of the degree at i. -/
theorem dinvOf_apply (hzN : S0.BroadcastsInDim (Vc N) ![]) (deg : FVec Ideal (Vc N) .f32) (i : Fin N) :
    dinvOf hzN deg (ix1 i) = dinv1 (deg (ix1 i)) := rfl

/-- The scalar zero spread over any shape is zero at every index. -/
theorem zeroSpread_apply {s : Shape} (hz : S0.BroadcastsInDim s ![]) (i : s.Idx) :
    broadcastInDim s ![] hz (constant (F := Ideal) S0 .f32 0x00000000#32) i = 0 := Ideal.ofBits_zero_f32

/-- The scalar one spread over any shape is one at every index. -/
theorem oneSpread_apply {s : Shape} (hz : S0.BroadcastsInDim s ![]) (i : s.Idx) :
    broadcastInDim s ![] hz (constant (F := Ideal) S0 .f32 0x3F800000#32) i = Ideal.ofBits .f32 0x3F800000#32 := rfl

/-- A vector laid out as a column reads, at (i, u), the vector at i. -/
theorem column_apply {α : Type} {A : ℕ} (hA1 : (Vc A).BroadcastsInDim (Mx A 1) ![0]) (v : (Vc A).Idx → α)
    (i : Fin A) (u : Fin 1) : broadcastInDim (Mx A 1) ![0] hA1 v (ix2 i u) = v (ix1 i) :=
  inDim_a_a1_apply v hA1 i u

/-- A column spread over B columns reads, at (i, j), the column at (i, 0). -/
theorem spreadColumn_apply {α : Type} {A B : ℕ} (hAB : (Mx A 1).BroadcastsInDim (Mx A B) ![0, 1])
    (v : (Mx A 1).Idx → α) (i : Fin A) (j : Fin B) :
    broadcastInDim (Mx A B) ![0, 1] hAB v (ix2 i j) = v (ix2 i (0 : Fin 1)) :=
  inDim_a1_ab_apply v hAB i j

/-! ## Gathers at wrapped indices -/

/-- A wrapped index vector laid out as a column reads, at (e, 0), the wrapped word at e. -/
theorem wrappedColumn_apply (n : BitVec 32) (hzE : S0.BroadcastsInDim (Vc E) ![])
    (hE1 : (Vc E).BroadcastsInDim (Mx E 1) ![0]) (x : IVec (Vc E) 32) (e : Fin E) :
    broadcastInDim (Mx E 1) ![0] hE1 (wrapNeg n hzE x) (ix2 e (0 : Fin 1)) = wrap1 n (x (ix1 e)) := by
  rw [inDim_a_a1_apply]
  rfl

/-- Rows gathered at a wrapped index column: entry (e, f) is entry f of the row the wrapped word at e names. -/
theorem gatherRowsWrapped_apply {α : Type} (hN : 0 < N) (n : BitVec 32) (hzE : S0.BroadcastsInDim (Vc E) ![])
    (hE1 : (Vc E).BroadcastsInDim (Mx E 1) ![0])
    (gwf : GatherDims.WF (Mx N C) (Mx E 1) (Mx E C) [1] [0] [] [0] [] 1 ![1, C])
    (x : (Mx N C).Idx → α) (src : IVec (Vc E) 32) (e : Fin E) (f : Fin C) :
    Host.gather (rowGatherDims N E C gwf) x (broadcastInDim (Mx E 1) ![0] hE1 (wrapNeg n hzE src)) (ix2 e f) =
      x (ix2 (nodeIdx N hN (wrap1 n (src (ix1 e)))) f) := by
  rw [gather_rows_apply hN]
  refine congrArg (fun r => x (ix2 r f)) (Fin.ext ?_)
  show min _ (N - 1) = min _ (N - 1)
  rw [wrappedColumn_apply]

/-- Entries gathered at a wrapped index column: entry e is the entry the wrapped word at e names. -/
theorem gatherVecWrapped_apply {α : Type} (hN : 0 < N) (n : BitVec 32) (hzE : S0.BroadcastsInDim (Vc E) ![])
    (hE1 : (Vc E).BroadcastsInDim (Mx E 1) ![0])
    (gvwf : GatherDims.WF (Vc N) (Mx E 1) (Vc E) [] [0] [] [0] [] 1 ![1])
    (x : (Vc N).Idx → α) (src : IVec (Vc E) 32) (e : Fin E) :
    Host.gather (vecGatherDims N E gvwf) x (broadcastInDim (Mx E 1) ![0] hE1 (wrapNeg n hzE src)) (ix1 e) =
      x (ix1 (nodeIdx N hN (wrap1 n (src (ix1 e))))) := by
  rw [gather_vec_apply hN]
  refine congrArg (fun r => x (ix1 r)) (Fin.ext ?_)
  show min _ (N - 1) = min _ (N - 1)
  rw [wrappedColumn_apply]

/-! ## The two arrangements of the aggregation -/

/-- Factors on rows before and after the sum: at (i, f), the factor of i times the sum, over the edges arriving at i,
    of the source row's entry f times the source's factor, plus the squared factor of i times the node's own entry. -/
theorem aggScaledRows_apply (hN : 0 < N) (n : BitVec 32) (hzE : S0.BroadcastsInDim (Vc E) ![])
    (hE1 : (Vc E).BroadcastsInDim (Mx E 1) ![0])
    (hN1 : (Vc N).BroadcastsInDim (Mx N 1) ![0]) (hNC : (Mx N 1).BroadcastsInDim (Mx N C) ![0, 1])
    (hzNC : S0.BroadcastsInDim (Mx N C) ![])
    (gwf : GatherDims.WF (Mx N C) (Mx E 1) (Mx E C) [1] [0] [] [0] [] 1 ![1, C])
    (swf : ScatterDims.WF (Mx N C) (Mx E 1) (Mx E C) [1] [0] [0] 1)
    (dinv : FVec Ideal (Vc N) .f32) (src dst : IVec (Vc E) 32) (h : FVec Ideal (Mx N C) .f32) (i : Fin N) (f : Fin C) :
    aggScaledRows n hzE hE1 hN1 hNC hzNC gwf swf dinv src dst h (ix2 i f)
      = dinv (ix1 i) * (0 + ∑ e : Fin E, if (dst (ix1 e)).toInt = (i.val : ℤ) then
            h (ix2 (nodeIdx N hN (wrap1 n (src (ix1 e)))) f) * dinv (ix1 (nodeIdx N hN (wrap1 n (src (ix1 e))))) else 0)
        + (dinv (ix1 i) * dinv (ix1 i)) * h (ix2 i f) := by
  unfold aggScaledRows
  rw [addf_apply, mulf_apply, mulf_apply, scatterAdd_rows_apply,
    spreadColumn_apply, column_apply, spreadColumn_apply, column_apply, mulf_apply, zeroSpread_apply]
  refine congrArg (fun t => dinv (ix1 i) * (0 + t) + dinv (ix1 i) * dinv (ix1 i) * h (ix2 i f))
    (Finset.sum_congr rfl fun e _ => ?_)
  rw [column_apply, gatherRowsWrapped_apply hN, mulf_apply, spreadColumn_apply, column_apply]

/-- Factors of both ends on each edge's row: at (i, f), the sum, over the edges arriving at i, of the source row's
    entry f times the product of the factors of the edge's two ends. -/
theorem aggScaledEdges_apply (hN : 0 < N) (n : BitVec 32) (hzE : S0.BroadcastsInDim (Vc E) ![])
    (hE1 : (Vc E).BroadcastsInDim (Mx E 1) ![0])
    (hEC : (Mx E 1).BroadcastsInDim (Mx E C) ![0, 1]) (hzNC : S0.BroadcastsInDim (Mx N C) ![])
    (gvwf : GatherDims.WF (Vc N) (Mx E 1) (Vc E) [] [0] [] [0] [] 1 ![1])
    (gwf : GatherDims.WF (Mx N C) (Mx E 1) (Mx E C) [1] [0] [] [0] [] 1 ![1, C])
    (swf : ScatterDims.WF (Mx N C) (Mx E 1) (Mx E C) [1] [0] [0] 1)
    (dinv : FVec Ideal (Vc N) .f32) (s d : IVec (Vc E) 32) (h : FVec Ideal (Mx N C) .f32) (i : Fin N) (f : Fin C) :
    aggScaledEdges n hzE hE1 hEC hzNC gvwf gwf swf dinv s d h (ix2 i f)
      = 0 + ∑ e : Fin E, if (d (ix1 e)).toInt = (i.val : ℤ) then
          h (ix2 (nodeIdx N hN (wrap1 n (s (ix1 e)))) f) *
            (dinv (ix1 (nodeIdx N hN (wrap1 n (s (ix1 e))))) * dinv (ix1 (nodeIdx N hN (wrap1 n (d (ix1 e)))))) else 0 := by
  unfold aggScaledEdges
  rw [scatterAdd_rows_apply, zeroSpread_apply]
  refine congrArg (fun t => 0 + t) (Finset.sum_congr rfl fun e _ => ?_)
  rw [column_apply, mulf_apply, gatherRowsWrapped_apply hN, spreadColumn_apply, column_apply, mulf_apply,
    gatherVecWrapped_apply hN, gatherVecWrapped_apply hN]

/-! ## Degrees -/

/-- Loops added afterwards: the degree of i is one for every edge arriving at i, and one more. -/
theorem degLoopsAdded_apply (hzN : S0.BroadcastsInDim (Vc N) ![]) (hzE : S0.BroadcastsInDim (Vc E) ![])
    (hE1 : (Vc E).BroadcastsInDim (Mx E 1) ![0]) (swf : ScatterDims.WF (Vc N) (Mx E 1) (Vc E) [] [0] [0] 1)
    (dst : IVec (Vc E) 32) (i : Fin N) :
    degLoopsAdded hzN hzE hE1 swf dst (ix1 i)
      = (0 + ∑ e : Fin E, if (dst (ix1 e)).toInt = (i.val : ℤ) then Ideal.ofBits .f32 0x3F800000#32 else 0)
        + Ideal.ofBits .f32 0x3F800000#32 := by
  unfold degLoopsAdded
  rw [addf_apply, scatterAdd_vec_apply, zeroSpread_apply, oneSpread_apply]
  refine congrArg (fun t => (0 + t) + Ideal.ofBits .f32 0x3F800000#32) (Finset.sum_congr rfl fun e _ => ?_)
  rw [column_apply, oneSpread_apply]

/-- Loops among the edges: the degree of i is one for every listed edge arriving at i. -/
theorem degLoopsListed_apply (hzN : S0.BroadcastsInDim (Vc N) ![]) (hzE : S0.BroadcastsInDim (Vc E) ![])
    (hE1 : (Vc E).BroadcastsInDim (Mx E 1) ![0]) (swf : ScatterDims.WF (Vc N) (Mx E 1) (Vc E) [] [0] [0] 1)
    (d : IVec (Vc E) 32) (i : Fin N) :
    degLoopsListed hzN hzE hE1 swf d (ix1 i)
      = 0 + ∑ e : Fin E, if (d (ix1 e)).toInt = (i.val : ℤ) then Ideal.ofBits .f32 0x3F800000#32 else 0 := by
  unfold degLoopsListed
  rw [scatterAdd_vec_apply, zeroSpread_apply]
  refine congrArg (fun t => 0 + t) (Finset.sum_congr rfl fun e _ => ?_)
  rw [column_apply, oneSpread_apply]

/-! ## The normalising factor of one value -/

/-- The normalising factor is the reciprocal square root on the positive values and zero elsewhere. -/
theorem dinv1_eq (x : EReal) : dinv1 x = if 0 < x then Ideal.rsqrt x else 0 := by
  unfold dinv1
  rw [Ideal.ofBits_zero_f32]
  show Scalar.select (Ideal.cmp .ogt x 0) (Ideal.rsqrt x) 0 = _
  simp only [Scalar.select, Ideal.cmp]
  by_cases hx : 0 < x
  · simp [hx]
  · simp [hx]

/-- The normalising factor is never negative: a reciprocal root of a positive real, the limit zero at plus infinity,
    or zero. -/
theorem dinv1_nonneg (x : EReal) : 0 ≤ dinv1 x := by
  rw [dinv1_eq]
  split
  · rename_i hx
    induction x using EReal.rec with
    | bot => exact absurd hx (not_lt_bot)
    | top => rw [Ideal.rsqrt_top]
    | coe r =>
      have hr : 0 < r := by exact_mod_cast hx
      rw [Ideal.rsqrt_coe, if_neg (not_lt.mpr hr.le), if_neg hr.ne']
      exact_mod_cast inv_nonneg.mpr (Real.sqrt_nonneg r)
  · exact le_rfl

/-- The normalising factor is never plus infinity: the reciprocal root is taken of positive values only. -/
theorem dinv1_ne_top (x : EReal) : dinv1 x ≠ ⊤ := by
  rw [dinv1_eq]
  split
  · rename_i hx
    induction x using EReal.rec with
    | bot => exact absurd hx (not_lt_bot)
    | top => rw [Ideal.rsqrt_top]; exact EReal.zero_ne_top
    | coe r =>
      have hr : 0 < r := by exact_mod_cast hx
      rw [Ideal.rsqrt_coe, if_neg (not_lt.mpr hr.le), if_neg hr.ne']
      exact EReal.coe_ne_top _
  · exact EReal.zero_ne_top

end Cert.GraphStages

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.LibLoopEdges.lean ====
/-
  The loops of a graph listed after its edges.

  A graph on N nodes is given by E edges; its edge list with loops is those E edges followed by one loop per node, node
  j's loop at position E + j, E' = E + N positions in all. Index words are 32-bit: a word is read as a signed integer,
  a negative one is wrapped by adding the node count, and the result is clamped to a valid row. Here: a word whose signed
  value is a node's number names that node, wrapping leaves it alone, and a loop's word is such a word (node numbers are
  below 2^31); the joined index vector read on its two parts; and a sum over the E' positions as the sum over the edges
  plus the sum over the loops.
-/
import proofs.«146032_j7576322311022_2_alg».proof.Proof.LibGraphDefs
import proofs.«146032_j7576322311022_2_alg».proof.Proof.LibConcatPair
import Idealize.ShloMosaic.Lib.ValueIdx
import Idealize.ShloMosaic.Lib.Pipeline.Value
import Mathlib.Algebra.BigOperators.Fin

namespace Cert.LoopEdges

open Idealize.ShloMosaic Idealize.ShloMosaic.ValueIdx Cert.GraphStages
open scoped BigOperators

/-! ## Index words -/

/-- A natural number below 2^31, written as a 32-bit word, reads back as itself when the word is read signed. -/
theorem toInt_ofNat_lt {j : ℕ} (hj : j < 2 ^ 31) : (BitVec.ofNat 32 j).toInt = (j : ℤ) := by
  rw [BitVec.toInt_eq_toNat_cond, BitVec.toNat_ofNat]
  have hm : j % 2 ^ 32 = j := Nat.mod_eq_of_lt (by omega)
  rw [hm, if_pos (by omega)]

/-- Wrapping leaves a word that is not negative as it is. -/
theorem wrap1_of_nonneg (n b : BitVec 32) (hb : 0 ≤ b.toInt) : wrap1 n b = b := by
  have hs : b.slt 0#32 = false := by
    simp only [BitVec.slt, BitVec.toInt_zero, decide_eq_false_iff_not, not_lt]
    exact hb
  unfold wrap1 Scalar.select IntOp.cmpi
  simp only [hs]
  exact if_neg (by decide)

/-- A word whose signed value is node `i`'s number names node `i`. -/
theorem nodeIdx_of_toInt_eq (N : ℕ) (hN : 0 < N) (b : BitVec 32) (i : Fin N) (h : b.toInt = (i.val : ℤ)) :
    nodeIdx N hN b = i := by
  apply Fin.ext
  show min b.toInt.toNat (N - 1) = i.val
  rw [h, Int.toNat_natCast]
  have := i.isLt
  omega

/-- … and so does the word after wrapping. -/
theorem nodeIdx_wrap1_of_toInt_eq (N : ℕ) (hN : 0 < N) (n b : BitVec 32) (i : Fin N) (h : b.toInt = (i.val : ℤ)) :
    nodeIdx N hN (wrap1 n b) = i := by
  rw [wrap1_of_nonneg n b (by rw [h]; exact Int.natCast_nonneg _)]
  exact nodeIdx_of_toInt_eq N hN b i h

/-! ## A loop's word -/

/-- Node `j`'s number as a word reads back as `j`, the node count being at most 2^31. -/
theorem toInt_loop {N : ℕ} (hN31 : N ≤ 2 ^ 31) (j : Fin N) : (BitVec.ofNat 32 j.val).toInt = (j.val : ℤ) :=
  toInt_ofNat_lt (Nat.lt_of_lt_of_le j.isLt hN31)

/-- Wrapping leaves a loop's word as it is. -/
theorem wrap1_loop {N : ℕ} (hN31 : N ≤ 2 ^ 31) (n : BitVec 32) (j : Fin N) :
    wrap1 n (BitVec.ofNat 32 j.val) = BitVec.ofNat 32 j.val :=
  wrap1_of_nonneg n _ (by rw [toInt_loop hN31 j]; exact Int.natCast_nonneg _)

/-- Node `j`'s loop names node `j`. -/
theorem nodeIdx_wrap1_loop {N : ℕ} (hN : 0 < N) (hN31 : N ≤ 2 ^ 31) (n : BitVec 32) (j : Fin N) :
    nodeIdx N hN (wrap1 n (BitVec.ofNat 32 j.val)) = j :=
  nodeIdx_wrap1_of_toInt_eq N hN n _ j (toInt_loop hN31 j)

/-- Node `j`'s loop has node `i`'s number exactly when `j` is `i`. -/
theorem toInt_loop_eq_iff {N : ℕ} (hN31 : N ≤ 2 ^ 31) (i j : Fin N) :
    (BitVec.ofNat 32 j.val).toInt = (i.val : ℤ) ↔ j = i := by
  rw [toInt_loop hN31 j]
  constructor
  · intro h; exact Fin.ext (by exact_mod_cast h)
  · intro h; rw [h]

/-! ## The joined index vector -/

/-- The first E entries of the joined vector are the given edges'. -/
theorem joined_edge {N E E' : ℕ} (u : IVec (Vc E) 32) (hE' : E' = E + N)
    (h : Shape.Concatenates [Vc E, Vc N] (Vc E') 0) (e : Fin E) :
    concatenate (Vc E') 0 [⟨Vc E, u⟩, ⟨Vc N, iotaInDim (Vc N) 32 0⟩] h (ix1 ⟨e.val, by omega⟩) = u (ix1 e) :=
  ConcatPair.vec_left u (iotaInDim (Vc N) 32 0) h ⟨e.val, by omega⟩ e rfl

/-- The entry at position E + j is node `j`'s number. -/
theorem joined_loop {N E E' : ℕ} (u : IVec (Vc E) 32) (hE' : E' = E + N)
    (h : Shape.Concatenates [Vc E, Vc N] (Vc E') 0) (j : Fin N) :
    concatenate (Vc E') 0 [⟨Vc E, u⟩, ⟨Vc N, iotaInDim (Vc N) 32 0⟩] h (ix1 ⟨E + j.val, by omega⟩)
      = BitVec.ofNat 32 j.val :=
  (ConcatPair.vec_right u (iotaInDim (Vc N) 32 0) h ⟨E + j.val, by omega⟩ j (Nat.add_comm _ _)).trans rfl

/-! ## Sums over the edge list with loops -/

/-- A sum over the E' = E + N positions is the sum over the edges plus the sum over the loops. -/
theorem sum_edges_loops {M : Type*} [AddCommMonoid M] {N E E' : ℕ} (hE' : E' = E + N) (f : Fin E' → M) :
    ∑ k, f k = (∑ e : Fin E, f ⟨e.val, by omega⟩) + ∑ j : Fin N, f ⟨E + j.val, by omega⟩ := by
  subst hE'
  rw [Fin.sum_univ_add]
  rfl

end Cert.LoopEdges
-- ==== Proof.LibScaledMax.lean ====
/-
  Scaling a row maximum of inner products by a nonnegative factor, on the extended reals.

  For a factor `c` with `0 ≤ c` and `c ≠ ⊤`, multiplication by `c` distributes over every finite sum of extended
  reals (no finiteness of the summands is needed) and is monotone, so it commutes with a maximum taken over a
  nonempty finite index set, also when that maximum is folded from `⊥`.  Together:
      (max_j ∑_k a_k · b_{j,k}) · c = max_j ∑_k (a_k · c) · b_{j,k}.
-/
import Mathlib.Data.EReal.Basic
import Mathlib.Data.EReal.Operations
import Mathlib.Data.EReal.Inv
import Mathlib.Data.Finset.Fold
import Mathlib.Algebra.BigOperators.Group.Finset.Basic

noncomputable section

namespace Cert.LibScaledMax

open Finset

/-- A nonnegative factor other than `⊤` distributes over a finite sum of extended reals. -/
theorem sum_mul_of_nonneg {K : Type*} (s : Finset K) (t : K → EReal) {c : EReal} (hc : 0 ≤ c) (hc' : c ≠ ⊤) :
    (∑ k ∈ s, t k) * c = ∑ k ∈ s, t k * c := by
  classical
  induction s using Finset.induction_on with
  | empty => simp
  | insert a s ha ih =>
    rw [Finset.sum_insert ha, Finset.sum_insert ha, EReal.right_distrib_of_nonneg_of_ne_top hc hc', ih]

/-- Scaling the left factors of an inner product scales the inner product. -/
theorem inner_scaled {K : Type*} [Fintype K] (a b : K → EReal) {c : EReal} (hc : 0 ≤ c) (hc' : c ≠ ⊤) :
    ∑ k, (a k * c) * b k = (∑ k, a k * b k) * c := by
  rw [sum_mul_of_nonneg _ _ hc hc']
  exact Finset.sum_congr rfl fun k _ => mul_right_comm _ _ _

/-- A maximum folded from `b` is the maximum of `b` and the one folded from `⊥`: when some entry dominates `b`,
    the starting value does not matter. -/
theorem fold_max_start {J : Type*} (s : Finset J) (g : J → EReal) (b : EReal) (j₀ : J) (hj₀ : j₀ ∈ s) (hb : b ≤ g j₀) :
    s.fold max b g = s.fold max ⊥ g := by
  refine eq_of_forall_ge_iff fun d => ?_
  rw [Finset.fold_max_le, Finset.fold_max_le]
  exact ⟨fun h => ⟨bot_le, h.2⟩, fun h => ⟨hb.trans (h.2 j₀ hj₀), h.2⟩⟩

/-- Multiplication by a nonnegative factor commutes with a maximum over a nonempty finite index set folded from `⊥`. -/
theorem fold_max_mul {J : Type*} [Fintype J] [Nonempty J] (f : J → EReal) {c : EReal} (hc : 0 ≤ c) :
    (univ.fold max ⊥ f) * c = univ.fold max ⊥ fun j => f j * c := by
  have hmono : Monotone fun x : EReal => x * c := fun x y h => mul_le_mul_of_nonneg_right h hc
  have hm : ∀ x y : EReal, max x y * c = max (x * c) (y * c) := fun x y => hmono.map_max
  rw [← Finset.fold_hom (op := max) (op' := max) (m := fun x : EReal => x * c) hm]
  obtain ⟨j₀⟩ := ‹Nonempty J›
  exact fold_max_start _ _ _ j₀ (mem_univ _) (hmono bot_le)

/-- THE LAW: scaling a row maximum of inner products by `c` is the row maximum of the inner products of the scaled row. -/
theorem rowmax_scaled {J K : Type*} [Fintype J] [Nonempty J] [Fintype K] (a : K → EReal) (b : J → K → EReal)
    {c : EReal} (hc : 0 ≤ c) (hc' : c ≠ ⊤) :
    (univ.fold max ⊥ fun j => ∑ k, a k * b j k) * c = univ.fold max ⊥ fun j => ∑ k, (a k * c) * b j k := by
  rw [fold_max_mul _ hc]
  exact congrArg (fun f => univ.fold max ⊥ f) (funext fun j => (inner_scaled a (b j) hc hc').symm)

end Cert.LibScaledMax

end
-- ==== Proof.LibSymNorm.lean ====
/-
  Scaling the rows of a segment sum, on the extended reals.

  A factor c with 0 ≤ c < ⊤ distributes over a finite sum of extended reals, so scaling every summand a e * b e of a
  filtered sum by c afterwards is scaling it inside: c * (∑ over the selected e of a e * b e) = ∑ of a e * (b e * c).
  With a node's own row x entering by c * c on either side, the two arrangements of a symmetric-normalised aggregation
  agree. Nothing is assumed of a, b or x (they may be infinite): only the factor has to be nonnegative and not ⊤.
-/
import Mathlib.Data.EReal.Basic
import Mathlib.Data.EReal.Operations
import Mathlib.Algebra.BigOperators.Group.Finset.Basic
import Mathlib.Algebra.BigOperators.Fin
import proofs.«146032_j7576322311022_2_alg».proof.Proof.LibScaledMax

namespace Cert.SymNorm

open Finset

/-- Scaled before and after the sum over the selected edges, against scaled edge by edge: both sides of the
    aggregation at one node and one feature. -/
theorem scaled_rows_eq_scaled_edges {ι : Type*} [Fintype ι] (P : ι → Prop) [DecidablePred P] (a b : ι → EReal)
    {c : EReal} (hc : 0 ≤ c) (hc' : c ≠ ⊤) (x : EReal) :
    c * (0 + ∑ e, if P e then a e * b e else 0) + (c * c) * x
      = 0 + ((∑ e, if P e then a e * (b e * c) else 0) + x * (c * c)) := by
  rw [zero_add, zero_add, mul_comm c (∑ e, _), Cert.LibScaledMax.sum_mul_of_nonneg _ _ hc hc', mul_comm (c * c) x]
  congr 1
  refine Finset.sum_congr rfl fun e _ => ?_
  split_ifs
  · rw [mul_assoc]
  · rw [zero_mul]

/-- Counting the selected edges and then one more is counting them among edges and loops, exactly one loop selected. -/
theorem count_add_one {ι κ : Type*} [Fintype ι] [Fintype κ] [DecidableEq κ] (P : ι → Prop) [DecidablePred P]
    (i : κ) (one : EReal) :
    (0 + ∑ e, if P e then one else 0) + one
      = 0 + ((∑ e, if P e then one else 0) + ∑ j : κ, if j = i then one else 0) := by
  rw [Finset.sum_ite_eq' Finset.univ i (fun _ => one), if_pos (Finset.mem_univ i), add_assoc]

end Cert.SymNorm
-- ==== Proof.LibEdgeSums.lean ====
/-
  The two arrangements of the aggregation agree, as finite sums.

  Node i's row of the aggregation, at feature f, is a sum over the edges arriving at i. With the loops listed among the
  edges (E' = E + N positions: the E given edges, then node j's loop at position E + j) every position contributes its
  source's row scaled by the factors of its two ends. On a given edge arriving at i the destination's factor is node i's,
  a constant that comes out of the sum; the loops arriving at i are the single loop of node i, which contributes node i's
  own row scaled by the square of its factor. The factor being nonnegative and finite, it distributes over the sum of
  extended reals, whatever the rows hold. The degree count splits the same way: the given edges arriving at i, and one
  more for the loop.
-/
import proofs.«146032_j7576322311022_2_alg».proof.Proof.LibLoopEdges
import proofs.«146032_j7576322311022_2_alg».proof.Proof.LibSymNorm
import proofs.«146032_j7576322311022_2_alg».proof.Proof.LibGraphDefs

namespace Cert.EdgeSums

open Idealize.ShloMosaic Idealize.ShloMosaic.ValueIdx Cert.GraphStages Cert.LoopEdges
open scoped BigOperators

variable {N E E' C : ℕ} (hN : 0 < N) (hN31 : N ≤ 2 ^ 31) (hE' : E' = E + N)
  (hcat : Shape.Concatenates [Vc E, Vc N] (Vc E') 0) (n : BitVec 32) (src dst : IVec (Vc E) 32)
include hN31 hE'

/-- The aggregation at node `i` and feature `f`: summed over edges and loops with each position scaled by the factors
    of its two ends, it is node `i`'s factor times the sum over the given edges arriving at `i` of the source's row scaled
    by the source's factor, plus the square of node `i`'s factor times node `i`'s own row. -/
theorem agg_sums_eq (dinv : (Vc N).Idx → EReal) (hd0 : ∀ j, 0 ≤ dinv j) (hdT : ∀ j, dinv j ≠ ⊤)
    (h : (Mx N C).Idx → EReal) (i : Fin N) (f : Fin C) :
    (0 + ∑ k : Fin E',
        if (concatenate (Vc E') 0 [⟨Vc E, dst⟩, ⟨Vc N, iotaInDim (Vc N) 32 0⟩] hcat (ix1 k)).toInt = (i.val : ℤ) then
          h (ix2 (nodeIdx N hN (wrap1 n (concatenate (Vc E') 0 [⟨Vc E, src⟩, ⟨Vc N, iotaInDim (Vc N) 32 0⟩] hcat (ix1 k)))) f)
            * (dinv (ix1 (nodeIdx N hN (wrap1 n (concatenate (Vc E') 0 [⟨Vc E, src⟩, ⟨Vc N, iotaInDim (Vc N) 32 0⟩] hcat (ix1 k)))))
              * dinv (ix1 (nodeIdx N hN (wrap1 n (concatenate (Vc E') 0 [⟨Vc E, dst⟩, ⟨Vc N, iotaInDim (Vc N) 32 0⟩] hcat (ix1 k))))))
        else 0)
      = dinv (ix1 i)
          * (0 + ∑ e : Fin E,
              if (dst (ix1 e)).toInt = (i.val : ℤ) then
                h (ix2 (nodeIdx N hN (wrap1 n (src (ix1 e)))) f) * dinv (ix1 (nodeIdx N hN (wrap1 n (src (ix1 e)))))
              else 0)
        + (dinv (ix1 i) * dinv (ix1 i)) * h (ix2 i f) := by
  refine Eq.trans ?_ (Cert.SymNorm.scaled_rows_eq_scaled_edges (fun e : Fin E => (dst (ix1 e)).toInt = (i.val : ℤ))
    (fun e => h (ix2 (nodeIdx N hN (wrap1 n (src (ix1 e)))) f)) (fun e => dinv (ix1 (nodeIdx N hN (wrap1 n (src (ix1 e))))))
    (hd0 (ix1 i)) (hdT (ix1 i)) (h (ix2 i f))).symm
  rw [sum_edges_loops hE']
  congr 1
  congr 1
  · -- a given edge: the joined vectors read the given ones, and the destination's row is node i's
    refine Finset.sum_congr rfl fun e _ => ?_
    rw [joined_edge dst hE' hcat e, joined_edge src hE' hcat e]
    split_ifs with hc
    · rw [nodeIdx_wrap1_of_toInt_eq N hN n _ i hc]
    · rfl
  · -- the loops: both ends of node j's loop are j, and it arrives at i exactly when j is i
    refine (Finset.sum_congr rfl fun j _ => ?_).trans
      ((Finset.sum_ite_eq' Finset.univ i fun j => h (ix2 j f) * (dinv (ix1 j) * dinv (ix1 j))).trans
        (if_pos (Finset.mem_univ i)))
    rw [joined_loop dst hE' hcat j, joined_loop src hE' hcat j, nodeIdx_wrap1_loop hN hN31 n j]
    exact if_congr (toInt_loop_eq_iff hN31 i j) rfl rfl

/-- The degree count at node `i`: over edges and loops it is the count over the given edges arriving at `i`, and one
    more for node `i`'s loop. -/
theorem deg_sums_eq (i : Fin N) (one : EReal) :
    (0 + ∑ k : Fin E',
        if (concatenate (Vc E') 0 [⟨Vc E, dst⟩, ⟨Vc N, iotaInDim (Vc N) 32 0⟩] hcat (ix1 k)).toInt = (i.val : ℤ) then one else 0)
      = (0 + ∑ e : Fin E, if (dst (ix1 e)).toInt = (i.val : ℤ) then one else 0) + one := by
  refine Eq.trans ?_ (Cert.SymNorm.count_add_one (fun e : Fin E => (dst (ix1 e)).toInt = (i.val : ℤ)) i one).symm
  rw [sum_edges_loops hE']
  congr 1
  congr 1
  · refine Finset.sum_congr rfl fun e _ => ?_
    rw [joined_edge dst hE' hcat e]
  · refine Finset.sum_congr rfl fun j _ => ?_
    rw [joined_loop dst hE' hcat j]
    exact if_congr (toInt_loop_eq_iff hN31 i j) rfl rfl

end Cert.EdgeSums
-- ==== Proof.LibGraphBridge.lean ====
/-
  The two arrangements of the graph aggregation agree as whole arrays.

  Listing one loop per node after the given edges and scaling each listed edge's source row by the product of the factors
  of its two ends gives, at every node and feature, the same extended real as scaling rows by their node's factor,
  summing over the given edges arriving at the node, scaling by the destination's factor and adding the node's own row
  times the square of its factor — provided every factor is nonnegative and not ⊤, so that it distributes over the sum.
  Likewise the degrees counted over edges and loops are the degrees counted over edges plus one.
-/
import proofs.«146032_j7576322311022_2_alg».proof.Proof.LibGraphDefs
import proofs.«146032_j7576322311022_2_alg».proof.Proof.LibGraphReads
import proofs.«146032_j7576322311022_2_alg».proof.Proof.LibEdgeSums

noncomputable section

namespace Cert.GraphStages

open Idealize.ShloMosaic Idealize.ShloMosaic.ValueIdx Cert.SegmentDims

variable {N E E' C : ℕ}

/-- Degrees over edges followed by loops are degrees over edges, one added for the loop. -/
theorem degLoopsListed_joined (hN31 : N ≤ 2 ^ 31) (hE' : E' = E + N)
    (hcat : Shape.Concatenates [Vc E, Vc N] (Vc E') 0)
    (hzN : S0.BroadcastsInDim (Vc N) ![]) (hzE : S0.BroadcastsInDim (Vc E) ![])
    (hE1 : (Vc E).BroadcastsInDim (Mx E 1) ![0]) (swf : ScatterDims.WF (Vc N) (Mx E 1) (Vc E) [] [0] [0] 1)
    (hzN' : S0.BroadcastsInDim (Vc N) ![]) (hzE' : S0.BroadcastsInDim (Vc E') ![])
    (hE'1 : (Vc E').BroadcastsInDim (Mx E' 1) ![0]) (swf' : ScatterDims.WF (Vc N) (Mx E' 1) (Vc E') [] [0] [0] 1)
    (dst : IVec (Vc E) 32) :
    degLoopsListed hzN' hzE' hE'1 swf'
        (concatenate (Vc E') 0 [⟨Vc E, dst⟩, ⟨Vc N, iotaInDim (Vc N) 32 0⟩] hcat)
      = degLoopsAdded hzN hzE hE1 swf dst := by
  funext j
  obtain ⟨i, rfl⟩ : ∃ i : Fin N, j = ix1 i := ⟨j 0, eq_ix1 j⟩
  rw [degLoopsListed_apply, degLoopsAdded_apply]
  exact Cert.EdgeSums.deg_sums_eq hN31 hE' hcat dst i _

/-- The aggregation over edges followed by loops, each listed edge scaled by the product of its ends' factors, is the
    aggregation with rows scaled before and after the sum over the given edges and the node's own row added. -/
theorem aggScaledEdges_joined (hN : 0 < N) (hN31 : N ≤ 2 ^ 31) (hE' : E' = E + N)
    (hcat : Shape.Concatenates [Vc E, Vc N] (Vc E') 0) (n : BitVec 32)
    (hzE : S0.BroadcastsInDim (Vc E) ![]) (hE1 : (Vc E).BroadcastsInDim (Mx E 1) ![0])
    (hN1 : (Vc N).BroadcastsInDim (Mx N 1) ![0]) (hNC : (Mx N 1).BroadcastsInDim (Mx N C) ![0, 1])
    (hzNC : S0.BroadcastsInDim (Mx N C) ![])
    (gwf : GatherDims.WF (Mx N C) (Mx E 1) (Mx E C) [1] [0] [] [0] [] 1 ![1, C])
    (swf : ScatterDims.WF (Mx N C) (Mx E 1) (Mx E C) [1] [0] [0] 1)
    (hzE' : S0.BroadcastsInDim (Vc E') ![]) (hE'1 : (Vc E').BroadcastsInDim (Mx E' 1) ![0])
    (hE'C : (Mx E' 1).BroadcastsInDim (Mx E' C) ![0, 1]) (hzNC' : S0.BroadcastsInDim (Mx N C) ![])
    (gvwf' : GatherDims.WF (Vc N) (Mx E' 1) (Vc E') [] [0] [] [0] [] 1 ![1])
    (gwf' : GatherDims.WF (Mx N C) (Mx E' 1) (Mx E' C) [1] [0] [] [0] [] 1 ![1, C])
    (swf' : ScatterDims.WF (Mx N C) (Mx E' 1) (Mx E' C) [1] [0] [0] 1)
    (dinv : FVec Ideal (Vc N) .f32) (hd0 : ∀ j, 0 ≤ dinv j) (hdT : ∀ j, dinv j ≠ ⊤)
    (src dst : IVec (Vc E) 32) (h : FVec Ideal (Mx N C) .f32) :
    aggScaledEdges n hzE' hE'1 hE'C hzNC' gvwf' gwf' swf' dinv
        (concatenate (Vc E') 0 [⟨Vc E, src⟩, ⟨Vc N, iotaInDim (Vc N) 32 0⟩] hcat)
        (concatenate (Vc E') 0 [⟨Vc E, dst⟩, ⟨Vc N, iotaInDim (Vc N) 32 0⟩] hcat) h
      = aggScaledRows n hzE hE1 hN1 hNC hzNC gwf swf dinv src dst h := by
  funext j
  obtain ⟨i, f, rfl⟩ : ∃ (i : Fin N) (f : Fin C), j = ix2 i f := ⟨j 0, j 1, eq_ix2 j⟩
  rw [aggScaledEdges_apply hN, aggScaledRows_apply hN]
  exact Cert.EdgeSums.agg_sums_eq hN hN31 hE' hcat n src dst dinv hd0 hdT h i f

/-- The factors computed from any degrees are nonnegative and never ⊤. -/
theorem dinvOf_nonneg (hzN : S0.BroadcastsInDim (Vc N) ![]) (deg : FVec Ideal (Vc N) .f32) (j : (Vc N).Idx) :
    0 ≤ dinvOf hzN deg j := by
  obtain ⟨i, rfl⟩ : ∃ i : Fin N, j = ix1 i := ⟨j 0, eq_ix1 j⟩
  rw [dinvOf_apply]; exact dinv1_nonneg _

theorem dinvOf_ne_top (hzN : S0.BroadcastsInDim (Vc N) ![]) (deg : FVec Ideal (Vc N) .f32) (j : (Vc N).Idx) :
    dinvOf hzN deg j ≠ ⊤ := by
  obtain ⟨i, rfl⟩ : ∃ i : Fin N, j = ix1 i := ⟨j 0, eq_ix1 j⟩
  rw [dinvOf_apply]; exact dinv1_ne_top _

end Cert.GraphStages

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.Bridge.lean ====
/-
  The reference's result and the kernel's result are one function of the six arguments.

  Both compute the same normalising factors (degrees counted over edges and loops are degrees counted over edges plus
  one); with those factors, nonnegative and never ⊤, each layer's aggregation over edges followed by loops equals the
  kernel's arrangement of it; the host's matrix product is the plain inner product of rows and columns; and the bias
  added after the first aggregation and the clamp at zero are the same entry by entry, the bias row read from the same
  vector. Composing these through the two layers gives the equality of the results as whole arrays.
-/
import proofs.«146032_j7576322311022_2_alg».proof.Proof.KernelStages
import proofs.«146032_j7576322311022_2_alg».proof.Proof.RefStages
import proofs.«146032_j7576322311022_2_alg».proof.Proof.LibGraphBridge
import proofs.«146032_j7576322311022_2_alg».proof.Proof.LibGraphReads
import proofs.«146032_j7576322311022_2_alg».proof.Proof.LibInnerProducts
import proofs.«146032_j7576322311022_2_alg».proof.Proof.LibInDimRow
import Idealize.ShloMosaic.Lib.ValueLayout

set_option maxRecDepth 16384

noncomputable section

namespace Cert.Bridge

open Idealize.ShloMosaic Idealize.ShloMosaic.ValueIdx Cert.GraphStages Cert.DenseStages
open Cert.KernelIdeal.Fold Cert.ReferenceIdeal.Stages

abbrev A512 : Shape := ⟨2, ![100000, 512]⟩
abbrev A64 : Shape := ⟨2, ![100000, 64]⟩
abbrev A10 : Shape := ⟨2, ![100000, 10]⟩
abbrev EI : Shape := ⟨2, ![2, 3200000]⟩

/-- Both programs read the same two rows of the edge list. -/
theorem src_eq (ei : IVec EI 32) : srcR ei = srcK ei := rfl
theorem dst_eq (ei : IVec EI 32) : dstR ei = dstK ei := rfl

/-- The two programs compute the same normalising factors. -/
theorem dinv_eq (ei : IVec EI 32) : dinvR ei = dinvK ei := by
  unfold dinvR dinvK withLoops
  rw [dst_eq]
  exact congrArg (dinvOf (N := 100000) Cert.KernelIdeal.Facts₀.bcast_S_S100000)
    (degLoopsListed_joined (N := 100000) (E := 3200000) (E' := 3300000) (by norm_num) rfl _ _ _ _ _ _ _ _ _ (dstK ei))

/-- The aggregation of a 64-feature array: edges followed by loops against the kernel's arrangement. -/
theorem agg64_eq (ei : IVec EI 32) (h : FVec Ideal A64 .f32) : aggR64 ei h = agg64 ei h := by
  unfold aggR64 agg64 withLoops
  rw [dinv_eq, src_eq, dst_eq]
  exact aggScaledEdges_joined (N := 100000) (E := 3200000) (E' := 3300000) (C := 64) (by norm_num) (by norm_num) rfl
    _ 100000#32 _ _ _ _ _ _ _ _ _ _ _ _ _ _ (dinvK ei) (fun j => dinvOf_nonneg _ _ j) (fun j => dinvOf_ne_top _ _ j)
    (srcK ei) (dstK ei) h

/-- The aggregation of a 10-feature array. -/
theorem agg10_eq (ei : IVec EI 32) (h : FVec Ideal A10 .f32) : aggR10 ei h = agg10 ei h := by
  unfold aggR10 agg10 withLoops
  rw [dinv_eq, src_eq, dst_eq]
  exact aggScaledEdges_joined (N := 100000) (E := 3200000) (E' := 3300000) (C := 10) (by norm_num) (by norm_num) rfl
    _ 100000#32 _ _ _ _ _ _ _ _ _ _ _ _ _ _ (dinvK ei) (fun j => dinvOf_nonneg _ _ j) (fun j => dinvOf_ne_top _ _ j)
    (srcK ei) (dstK ei) h

/-- The host's matrix products are the plain inner products of rows and columns. -/
theorem dot1_eq (x : FVec Ideal A512 .f32) (w : FVec Ideal ⟨2, ![512, 64]⟩ .f32) :
    Host.dotGeneral Cert.ReferenceIdeal.dot_S100000x512_S512x64_S100000x64_1_0_0_1_n_n none x w
      = matProd (M := 100000) (K := 512) (N := 64) x w := by
  funext j
  obtain ⟨p, f, rfl⟩ : ∃ (p : Fin 100000) (f : Fin 64), j = ix2 p f := ⟨j 0, j 1, eq_ix2 j⟩
  exact Idealize.ShloMosaic.InnerProducts.dotGeneral_apply _ rfl none x w p f

theorem dot2_eq (x : FVec Ideal A64 .f32) (w : FVec Ideal ⟨2, ![64, 10]⟩ .f32) :
    Host.dotGeneral Cert.ReferenceIdeal.dot_S100000x64_S64x10_S100000x10_1_0_0_1_n_n none x w
      = matProd (M := 100000) (K := 64) (N := 10) x w := by
  funext j
  obtain ⟨p, f, rfl⟩ : ∃ (p : Fin 100000) (f : Fin 10), j = ix2 p f := ⟨j 0, j 1, eq_ix2 j⟩
  exact Idealize.ShloMosaic.InnerProducts.dotGeneral_apply _ rfl none x w p f

/-- The first layer's output with its bias and clamp: the reference adds the bias vector spread over the rows, the
    kernel adds it as a [1, 64] row inside its second region; entry by entry they are max (a + b d) 0. -/
theorem hidden_eq (x : FVec Ideal A512 .f32) (ei : IVec EI 32) (w1 : FVec Ideal ⟨2, ![512, 64]⟩ .f32)
    (b1 : FVec Ideal ⟨1, ![64]⟩ .f32) :
    hiddenR x ei w1 b1
      = reluBias (M := 100000) (K := 64) (agg64 ei (matProd (M := 100000) (K := 512) (N := 64) x w1))
          (shapeCast ⟨2, ![1, 64]⟩ b1 Cert.KernelIdeal.Facts₀.shapeCasts_S64_S1x64) := by
  funext j
  obtain ⟨p, d, rfl⟩ : ∃ (p : Fin 100000) (d : Fin 64), j = ix2 p d := ⟨j 0, j 1, eq_ix2 j⟩
  unfold hiddenR
  rw [maximumf_apply, addf_apply, agg64_eq, dot1_eq, reluBias_apply, zeroSpread_apply,
    Cert.LibInDimRow.inDim_1b_ab_apply, Cert.LibInDimRow.inDim_b_1b_apply, shapeCast_a_1a_apply]

/-- The two results are one function. -/
theorem result_eq (x : FVec Ideal A512 .f32) (ei : IVec EI 32) (w1 : FVec Ideal ⟨2, ![512, 64]⟩ .f32)
    (b1 : FVec Ideal ⟨1, ![64]⟩ .f32) (w2 : FVec Ideal ⟨2, ![64, 10]⟩ .f32) (b2 : FVec Ideal ⟨1, ![10]⟩ .f32) :
    resultR x ei w1 b1 w2 b2 = resultK x ei w1 b1 w2 b2 := by
  unfold resultR resultK
  rw [hidden_eq, dot2_eq, agg10_eq]

end Cert.Bridge

end
-- ==== Proof.lean ====
/- The proof of `Cert.Claim`: a two-layer symmetric-normalised graph convolution, kernel against reference.

   The kernel computes each layer's dense product in a Pallas region (the second region also adds the first layer's
   bias and clamps at zero) and aggregates on the host by scaling rows with the nodes' normalising factors before and
   after a segment sum over the edges, adding each node's own row times the square of its factor. The reference lists
   one loop per node after the edges and scales every listed edge's row by the product of its ends' factors. On the
   extended reals the two agree because a factor that is nonnegative and not ⊤ distributes over a finite sum; nothing
   is needed of the inputs, so the precondition is never opened.

   The modules: LibDenseStages and LibGraphDefs (the stages as whole-array functions), LibIndexedRows and LibGraphReads
   (row gathers, accumulating scatters and the stages read at an index), LibLoopEdges, LibSymNorm and LibEdgeSums (the sums
   joined), LibGraphBridge and Bridge (the two arrangements equal as arrays; the two results one function), RegionValues (what the
   two regions leave), KernelRun and KernelFold (the kernel's run and its buffers at each boundary), RefRun, RefRead and
   RefStages (the reference's run and its term in stages). The ideal pass rewrote nothing, so `preserves` is trivial. -/
import proofs.«146032_j7576322311022_2_alg».proof.Defs
import proofs.«146032_j7576322311022_2_alg».proof.Proof.Gen.Kernel
import proofs.«146032_j7576322311022_2_alg».proof.Proof.Gen.Kernel.Skeleton
import proofs.«146032_j7576322311022_2_alg».proof.Proof.Gen.Kernel.Launch
import proofs.«146032_j7576322311022_2_alg».proof.Proof.Gen.Kernel.Points
import proofs.«146032_j7576322311022_2_alg».proof.Proof.Gen.Kernel.Frame
import proofs.«146032_j7576322311022_2_alg».proof.Proof.Gen.KernelIdeal
import proofs.«146032_j7576322311022_2_alg».proof.Proof.Gen.KernelIdeal.Skeleton
import proofs.«146032_j7576322311022_2_alg».proof.Proof.Gen.KernelIdeal.Launch
import proofs.«146032_j7576322311022_2_alg».proof.Proof.Gen.KernelIdeal.Points
import proofs.«146032_j7576322311022_2_alg».proof.Proof.Gen.KernelIdeal.Frame
import proofs.«146032_j7576322311022_2_alg».proof.Proof.Gen.ReferenceIdeal
import proofs.«146032_j7576322311022_2_alg».proof.Proof.Gen.Pre_finite_inputs
import proofs.«146032_j7576322311022_2_alg».proof.Proof.RefRun
import proofs.«146032_j7576322311022_2_alg».proof.Proof.RefRead
import proofs.«146032_j7576322311022_2_alg».proof.Proof.KernelRun
import proofs.«146032_j7576322311022_2_alg».proof.Proof.KernelFold
import proofs.«146032_j7576322311022_2_alg».proof.Proof.RefStages
import proofs.«146032_j7576322311022_2_alg».proof.Proof.Bridge
import Idealize.ShloMosaic.Adequacy
import Idealize.ShloMosaic.Init

noncomputable section

namespace Cert.Proof

open Idealize.ShloMosaic Idealize.SL.Sem

/-- The three frames: the two kernels' by their generated frame certificates, the reference's by its run with the
    result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealized kernel is the kernel's own text read on the extended reals: no rewrite to account for. -/
theorem preserves : Cert.preserves_Kernel_KernelIdeal := trivial

/-- Both programs end with the result array at one function of the six arguments: the kernel's buffers read back
    through its six segments, the reference's composed term, and the two functions equal. -/
theorem algebraic : Cert.algebraic_KernelIdeal_ReferenceIdeal := by
  intro m ρ m' ρ' _ hagree
  refine ⟨fun c => Cert.KernelIdeal.Fold.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_W6 m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v90_eq, Cert.ReferenceIdeal.Stages.val_result, Cert.Bridge.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
